-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_30" .f32 0x3D088889#32 ((1 / 30 : ℝ) : EReal)
  ∧ IdealRules.named_const.Statement Cert.KernelIdeal.κ "inv_30" .f32 0x3D088889#32 ((1 / 30 : ℝ) : EReal)
  ∧ IdealRules.named_const.Statement Cert.KernelIdeal.κ "inv_30" .f32 0x3D088889#32 ((1 / 30 : ℝ) : EReal)
  ∧ IdealRules.named_const.Statement Cert.KernelIdeal.κ "inv_30" .f32 0x3D088889#32 ((1 / 30 : ℝ) : EReal)
  ∧ IdealRules.named_const.Statement Cert.KernelIdeal.κ "inv_30" .f32 0x3D088889#32 ((1 / 30 : ℝ) : EReal)
  ∧ IdealRules.named_const.Statement Cert.KernelIdeal.κ "inv_30" .f32 0x3D088889#32 ((1 / 30 : ℝ) : EReal)
  ∧ IdealRules.named_const.Statement Cert.KernelIdeal.κ "inv_30" .f32 0x3D088889#32 ((1 / 30 : ℝ) : EReal)
  ∧ IdealRules.named_const.Statement Cert.KernelIdeal.κ "inv_30" .f32 0x3D088889#32 ((1 / 30 : ℝ) : EReal)
  ∧ IdealRules.named_const.Statement Cert.KernelIdeal.κ "inv_30" .f32 0x3D088889#32 ((1 / 30 : ℝ) : EReal)
  ∧ IdealRules.named_const.Statement Cert.KernelIdeal.κ "inv_30" .f32 0x3D088889#32 ((1 / 30 : ℝ) : EReal)
  ∧ IdealRules.named_const.Statement Cert.KernelIdeal.κ "inv_30" .f32 0x3D088889#32 ((1 / 30 : ℝ) : EReal)
  ∧ IdealRules.named_const.Statement Cert.KernelIdeal.κ "inv_30" .f32 0x3D088889#32 ((1 / 30 : ℝ) : EReal)
  ∧ IdealRules.named_const.Statement Cert.KernelIdeal.κ "inv_30" .f32 0x3D088889#32 ((1 / 30 : ℝ) : EReal)
  ∧ IdealRules.named_const.Statement Cert.KernelIdeal.κ "inv_30" .f32 0x3D088889#32 ((1 / 30 : ℝ) : EReal)
  ∧ IdealRules.named_const.Statement Cert.KernelIdeal.κ "inv_30" .f32 0x3D088889#32 ((1 / 30 : ℝ) : EReal)
  ∧ IdealRules.named_const.Statement Cert.KernelIdeal.κ "inv_30" .f32 0x3D088889#32 ((1 / 30 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x1x1x2048 : Shape := ⟨4, ![4, 1, 1, 2048]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x1x1x2048 : S_.BroadcastsInDim S4x1x1x2048 (![] : Fin 0 → Fin S4x1x1x2048.rank)
  reducesTo_S4x1x1x2048_S_d0_1_2_3 : S4x1x1x2048.ReducesTo [0, 1, 2, 3] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S4x2048x1024 .f32) (main_arg1 : FVec F S4x1x1x2048 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x1x1x2048 .f32 := Host.absf main_arg1
  let main_cst_0 : FVec F S_ .f32 := constant S_ .f32 0x7F800000#32
  let main_v5 : FVec F S4x1x1x2048 .f32 := broadcastInDim S4x1x1x2048 ![] bcast_S_S4x1x1x2048 main_cst_0
  let main_v6 : IVec S4x1x1x2048 1 := cmpf .olt main_v4 main_v5
  let main_c_1 : IVec S_ 1 := constantI S_ 1 1#1
  let main_v7 : IVec S_ 1 := (fun x v => Host.reduce IntOp.andi x v reducesTo_S4x1x1x2048_S_d0_1_2_3 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S4x2048x1024 : Shape := ⟨3, ![4, 2048, 1024]⟩
abbrev S4x1x1x2048 : Shape := ⟨4, ![4, 1, 1, 2048]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S4x2048x16x64 : Shape := ⟨4, ![4, 2048, 16, 64]⟩
abbrev S4x1x2048 : Shape := ⟨3, ![4, 1, 2048]⟩
abbrev S1x512x16x64 : Shape := ⟨4, ![1, 512, 16, 64]⟩
abbrev S1x2048x16x64 : Shape := ⟨4, ![1, 2048, 16, 64]⟩
abbrev S1x1x2048 : Shape := ⟨3, ![1, 1, 2048]⟩
abbrev S512x16x64 : Shape := ⟨3, ![512, 16, 64]⟩
abbrev S2048x16x64 : Shape := ⟨3, ![2048, 16, 64]⟩
abbrev S1x2048 : Shape := ⟨2, ![1, 2048]⟩
abbrev S512x1x64 : Shape := ⟨3, ![512, 1, 64]⟩
abbrev S512x64 : Shape := ⟨2, ![512, 64]⟩
abbrev S2048x1x64 : Shape := ⟨3, ![2048, 1, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x512x1x64 : Shape := ⟨4, ![1, 512, 1, 64]⟩

abbrev nBuf : Space → Nat
  | .hbm => 24
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S4x1x1x2048, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S8192x1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S4x2048x16x64, .bf16⟩
  | .hbm, ⟨19, _⟩ => ⟨S4x2048x16x64, .bf16⟩
  | .hbm, ⟨20, _⟩ => ⟨S4x2048x16x64, .bf16⟩
  | .hbm, ⟨21, _⟩ => ⟨S4x1x2048, .f32⟩
  | .hbm, ⟨22, _⟩ => ⟨S4x2048x16x64, .f32⟩
  | .hbm, ⟨23, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512x16x64, .bf16⟩
  | .local _ .vmem, ⟨15, _⟩ => ⟨S1x512x16x64, .bf16⟩
  | .local _ .vmem, ⟨16, _⟩ => ⟨S1x2048x16x64, .bf16⟩
  | .local _ .vmem, ⟨17, _⟩ => ⟨S1x2048x16x64, .bf16⟩
  | .local _ .vmem, ⟨18, _⟩ => ⟨S1x2048x16x64, .bf16⟩
  | .local _ .vmem, ⟨19, _⟩ => ⟨S1x2048x16x64, .bf16⟩
  | .local _ .vmem, ⟨20, _⟩ => ⟨S1x1x2048, .f32⟩
  | .local _ .vmem, ⟨21, _⟩ => ⟨S1x1x2048, .f32⟩
  | .local _ .vmem, ⟨22, _⟩ => ⟨S1x512x16x64, .f32⟩
  | .local _ .vmem, ⟨23, _⟩ => ⟨S1x512x16x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![4, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x512x16x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x16x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x16x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x16x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x2048x1024_S8192x1024 : S4x2048x1024.ShapeCasts S8192x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x16x64 : S8192x1024.ShapeCasts S4x2048x16x64
  shapeCasts_S4x1x1x2048_S4x1x2048 : S4x1x1x2048.ShapeCasts S4x1x2048
  inb_S1x512x16x64_S1x512x16x64_0_0_0_0 : ∀ a, (![0, 0, 0, 0] : Fin 4 → Nat) a + S1x512x16x64.size a ≤ S1x512x16x64.size a
  h_S1x512x16x64 : 0 < S1x512x16x64.numel
  shapeCasts_S1x512x16x64_S512x16x64 : S1x512x16x64.ShapeCasts S512x16x64
  inb_S1x2048x16x64_S1x2048x16x64_0_0_0_0 : ∀ a, (![0, 0, 0, 0] : Fin 4 → Nat) a + S1x2048x16x64.size a ≤ S1x2048x16x64.size a
  h_S1x2048x16x64 : 0 < S1x2048x16x64.numel
  shapeCasts_S1x2048x16x64_S2048x16x64 : S1x2048x16x64.ShapeCasts S2048x16x64
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  slices_S512x16x64_o0_0_0_S512x1x64 : S512x16x64.Slices ![0, 0, 0] S512x1x64
  shapeCasts_S512x1x64_S512x64 : S512x1x64.ShapeCasts S512x64
  slices_S2048x16x64_o0_0_0_S2048x1x64 : S2048x16x64.Slices ![0, 0, 0] S2048x1x64
  shapeCasts_S2048x1x64_S2048x64 : S2048x1x64.ShapeCasts S2048x64
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  inb_S1x512x16x64_S1x512x1x64_0_0_0_0 : ∀ a, (![0, 0, 0, 0] : Fin 4 → Nat) a + S1x512x1x64.size a ≤ S1x512x16x64.size a
  h_S1x512x1x64 : 0 < S1x512x1x64.numel
  shapeCasts_S1x512x1x64_S512x64 : S1x512x1x64.ShapeCasts S512x64
  shapeCasts_S512x64_S1x512x1x64 : S512x64.ShapeCasts S1x512x1x64
  slices_S512x16x64_o0_1_0_S512x1x64 : S512x16x64.Slices ![0, 1, 0] S512x1x64
  slices_S2048x16x64_o0_1_0_S2048x1x64 : S2048x16x64.Slices ![0, 1, 0] S2048x1x64
  inb_S1x512x16x64_S1x512x1x64_0_0_1_0 : ∀ a, (![0, 0, 1, 0] : Fin 4 → Nat) a + S1x512x1x64.size a ≤ S1x512x16x64.size a
  slices_S512x16x64_o0_2_0_S512x1x64 : S512x16x64.Slices ![0, 2, 0] S512x1x64
  slices_S2048x16x64_o0_2_0_S2048x1x64 : S2048x16x64.Slices ![0, 2, 0] S2048x1x64
  inb_S1x512x16x64_S1x512x1x64_0_0_2_0 : ∀ a, (![0, 0, 2, 0] : Fin 4 → Nat) a + S1x512x1x64.size a ≤ S1x512x16x64.size a
  slices_S512x16x64_o0_3_0_S512x1x64 : S512x16x64.Slices ![0, 3, 0] S512x1x64
  slices_S2048x16x64_o0_3_0_S2048x1x64 : S2048x16x64.Slices ![0, 3, 0] S2048x1x64
  inb_S1x512x16x64_S1x512x1x64_0_0_3_0 : ∀ a, (![0, 0, 3, 0] : Fin 4 → Nat) a + S1x512x1x64.size a ≤ S1x512x16x64.size a
  slices_S512x16x64_o0_4_0_S512x1x64 : S512x16x64.Slices ![0, 4, 0] S512x1x64
  slices_S2048x16x64_o0_4_0_S2048x1x64 : S2048x16x64.Slices ![0, 4, 0] S2048x1x64
  inb_S1x512x16x64_S1x512x1x64_0_0_4_0 : ∀ a, (![0, 0, 4, 0] : Fin 4 → Nat) a + S1x512x1x64.size a ≤ S1x512x16x64.size a
  slices_S512x16x64_o0_5_0_S512x1x64 : S512x16x64.Slices ![0, 5, 0] S512x1x64
  slices_S2048x16x64_o0_5_0_S2048x1x64 : S2048x16x64.Slices ![0, 5, 0] S2048x1x64
  inb_S1x512x16x64_S1x512x1x64_0_0_5_0 : ∀ a, (![0, 0, 5, 0] : Fin 4 → Nat) a + S1x512x1x64.size a ≤ S1x512x16x64.size a
  slices_S512x16x64_o0_6_0_S512x1x64 : S512x16x64.Slices ![0, 6, 0] S512x1x64
  slices_S2048x16x64_o0_6_0_S2048x1x64 : S2048x16x64.Slices ![0, 6, 0] S2048x1x64
  inb_S1x512x16x64_S1x512x1x64_0_0_6_0 : ∀ a, (![0, 0, 6, 0] : Fin 4 → Nat) a + S1x512x1x64.size a ≤ S1x512x16x64.size a
  slices_S512x16x64_o0_7_0_S512x1x64 : S512x16x64.Slices ![0, 7, 0] S512x1x64
  slices_S2048x16x64_o0_7_0_S2048x1x64 : S2048x16x64.Slices ![0, 7, 0] S2048x1x64
  inb_S1x512x16x64_S1x512x1x64_0_0_7_0 : ∀ a, (![0, 0, 7, 0] : Fin 4 → Nat) a + S1x512x1x64.size a ≤ S1x512x16x64.size a
  slices_S512x16x64_o0_8_0_S512x1x64 : S512x16x64.Slices ![0, 8, 0] S512x1x64
  slices_S2048x16x64_o0_8_0_S2048x1x64 : S2048x16x64.Slices ![0, 8, 0] S2048x1x64
  inb_S1x512x16x64_S1x512x1x64_0_0_8_0 : ∀ a, (![0, 0, 8, 0] : Fin 4 → Nat) a + S1x512x1x64.size a ≤ S1x512x16x64.size a
  slices_S512x16x64_o0_9_0_S512x1x64 : S512x16x64.Slices ![0, 9, 0] S512x1x64
  slices_S2048x16x64_o0_9_0_S2048x1x64 : S2048x16x64.Slices ![0, 9, 0] S2048x1x64
  inb_S1x512x16x64_S1x512x1x64_0_0_9_0 : ∀ a, (![0, 0, 9, 0] : Fin 4 → Nat) a + S1x512x1x64.size a ≤ S1x512x16x64.size a
  slices_S512x16x64_o0_10_0_S512x1x64 : S512x16x64.Slices ![0, 10, 0] S512x1x64
  slices_S2048x16x64_o0_10_0_S2048x1x64 : S2048x16x64.Slices ![0, 10, 0] S2048x1x64
  inb_S1x512x16x64_S1x512x1x64_0_0_10_0 : ∀ a, (![0, 0, 10, 0] : Fin 4 → Nat) a + S1x512x1x64.size a ≤ S1x512x16x64.size a
  slices_S512x16x64_o0_11_0_S512x1x64 : S512x16x64.Slices ![0, 11, 0] S512x1x64
  slices_S2048x16x64_o0_11_0_S2048x1x64 : S2048x16x64.Slices ![0, 11, 0] S2048x1x64
  inb_S1x512x16x64_S1x512x1x64_0_0_11_0 : ∀ a, (![0, 0, 11, 0] : Fin 4 → Nat) a + S1x512x1x64.size a ≤ S1x512x16x64.size a
  slices_S512x16x64_o0_12_0_S512x1x64 : S512x16x64.Slices ![0, 12, 0] S512x1x64
  slices_S2048x16x64_o0_12_0_S2048x1x64 : S2048x16x64.Slices ![0, 12, 0] S2048x1x64
  inb_S1x512x16x64_S1x512x1x64_0_0_12_0 : ∀ a, (![0, 0, 12, 0] : Fin 4 → Nat) a + S1x512x1x64.size a ≤ S1x512x16x64.size a
  slices_S512x16x64_o0_13_0_S512x1x64 : S512x16x64.Slices ![0, 13, 0] S512x1x64
  slices_S2048x16x64_o0_13_0_S2048x1x64 : S2048x16x64.Slices ![0, 13, 0] S2048x1x64
  inb_S1x512x16x64_S1x512x1x64_0_0_13_0 : ∀ a, (![0, 0, 13, 0] : Fin 4 → Nat) a + S1x512x1x64.size a ≤ S1x512x16x64.size a
  slices_S512x16x64_o0_14_0_S512x1x64 : S512x16x64.Slices ![0, 14, 0] S512x1x64
  slices_S2048x16x64_o0_14_0_S2048x1x64 : S2048x16x64.Slices ![0, 14, 0] S2048x1x64
  inb_S1x512x16x64_S1x512x1x64_0_0_14_0 : ∀ a, (![0, 0, 14, 0] : Fin 4 → Nat) a + S1x512x1x64.size a ≤ S1x512x16x64.size a
  slices_S512x16x64_o0_15_0_S512x1x64 : S512x16x64.Slices ![0, 15, 0] S512x1x64
  slices_S2048x16x64_o0_15_0_S2048x1x64 : S2048x16x64.Slices ![0, 15, 0] S2048x1x64
  inb_S1x512x16x64_S1x512x1x64_0_0_15_0 : ∀ a, (![0, 0, 15, 0] : Fin 4 → Nat) a + S1x512x1x64.size a ≤ S1x512x16x64.size a
  shapeCasts_S4x2048x16x64_S4x2048x1024 : S4x2048x16x64.ShapeCasts S4x2048x1024
  dot_S512x1024_S1024x1024_S512x1024_1_1_0_0_n_n_wf : DotDims.WF S512x1024 S1024x1024 S512x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x16x64.size a ≤ S4x2048x16x64.size a
  hwx1_0 : ∀ i : grid1.Coords, EltTy.bits .bf16 = 32 ∨ (Rect.block (s := S4x2048x16x64) S1x512x16x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x16x64.size a ≤ S4x2048x16x64.size a
  hwx1_1 : ∀ i : grid1.Coords, EltTy.bits .bf16 = 32 ∨ (Rect.block (s := S4x2048x16x64) S1x2048x16x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x16x64.size a ≤ S4x2048x16x64.size a
  hwx1_2 : ∀ i : grid1.Coords, EltTy.bits .bf16 = 32 ∨ (Rect.block (s := S4x2048x16x64) S1x2048x16x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048.size a ≤ S4x1x2048.size a
  hwx1_3 : ∀ i : grid1.Coords, EltTy.bits .f32 = 32 ∨ (Rect.block (s := S4x1x2048) S1x1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x16x64.size a ≤ S4x2048x16x64.size a
  hwx1_4 : ∀ i : grid1.Coords, EltTy.bits .f32 = 32 ∨ (Rect.block (s := S4x2048x16x64) S1x512x16x64.size (cc1_transform_4 i) (hinb1_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v8) S1x512x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x2048x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x2048x16x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x512x16x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S4x1x1x2048 : Shape := ⟨4, ![4, 1, 1, 2048]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1x1x2048, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S4x2048x1024, .f32⟩
  | .hbm, ⟨9, _⟩ => ⟨S1x1x1024, .f32⟩
  | .hbm, ⟨10, _⟩ => ⟨S4x2048x1024, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x2048x1024, .f32⟩
  | .hbm, ⟨15, _⟩ => ⟨S1x1x1024, .f32⟩
  | .hbm, ⟨16, _⟩ => ⟨S4x2048x1024, .f32⟩
  | .hbm, ⟨17, _⟩ => ⟨S4x2048x1024, .f32⟩
  | .hbm, ⟨18, _⟩ => ⟨S4x2048x16x64, .f32⟩
  | .hbm, ⟨19, _⟩ => ⟨S4x16x2048x64, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x2048x16x64, .f32⟩
  | .hbm, ⟨25, _⟩ => ⟨S4x16x2048x64, .f32⟩
  | .hbm, ⟨26, _⟩ => ⟨S4x16x2048x2048, .f32⟩
  | .hbm, ⟨27, _⟩ => ⟨S_, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S_, .f32⟩
  | .hbm, ⟨37, _⟩ => ⟨S4x16x2048x2048, .f32⟩
  | .hbm, ⟨38, _⟩ => ⟨S4x16x2048x2048, .f32⟩
  | .hbm, ⟨39, _⟩ => ⟨S_, .f32⟩
  | .hbm, ⟨40, _⟩ => ⟨S4x16x2048x2048, .f32⟩
  | .hbm, ⟨41, _⟩ => ⟨S4x16x2048x2048, .f32⟩
  | .hbm, ⟨42, _⟩ => ⟨S_, .f32⟩
  | .hbm, ⟨43, _⟩ => ⟨S4x16x2048, .f32⟩
  | .hbm, ⟨44, _⟩ => ⟨S4x16x2048x1, .f32⟩
  | .hbm, ⟨45, _⟩ => ⟨S_, .f32⟩
  | .hbm, ⟨46, _⟩ => ⟨S4x16x2048x1, .f32⟩
  | .hbm, ⟨47, _⟩ => ⟨S4x16x2048x1, .f32⟩
  | .hbm, ⟨48, _⟩ => ⟨S4x16x2048x2048, .f32⟩
  | .hbm, ⟨49, _⟩ => ⟨S4x16x2048x2048, .f32⟩
  | .hbm, ⟨50, _⟩ => ⟨S4x16x2048x64, .f32⟩
  | .hbm, ⟨51, _⟩ => ⟨S4x2048x16x64, .f32⟩
  | .hbm, ⟨52, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S4x1x1x2048_S4x16x2048x2048_0_1_2_3 : S4x1x1x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S4x16x2048_S4x16x2048x1_0_1_2 : S4x16x2048.BroadcastsInDim S4x16x2048x1 (![0, 1, 2] : Fin 3 → Fin S4x16x2048x1.rank)
  bcast_S_S4x16x2048x1 : S_.BroadcastsInDim S4x16x2048x1 (![] : Fin 0 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.RunAll.lean ====
/-
  The kernel program's run with its final memory NAMED: every weakly fair execution of the two-call program from a
  launch memory terminates without a fault, and every buffer that outlives the calls ends at the contents obtained by
  folding the program over the launch memory — the three stretches of host operations applied in order, each call's
  arrays replaced by what its write-backs leave. The result buffer is one of those buffers, so its final contents
  are that fold at the result; the argument buffers are too, and the fold leaves them as launched.
-/
import proofs.«116430_j893353197834_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with every surviving buffer's final contents: the fold of the program over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The run read at the result and at the eight arguments: the result buffer ends at the fold's contents there, and
    each argument buffer as launched. -/
theorem run_result : θ_run defs (onTc (τ := τ) (main (F := F))) ⟨m, fun _ => 0, ρ⟩ (fun r => ∀ c : Dev nD,
      r.2.mem ((c.tc : Thread nD τ).loc main_v13) = W5 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v13 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c)⟩)
    (run_all m ρ)

end Cert.KernelIdeal.Hand

end
-- ==== Proof.Spec.lean ====
/-
  Soft-capped rectified attention over 4 batches, 2048 positions, 16 heads of width 64, as ONE function of the
  eight argument arrays, entry by entry on the extended reals.

  A projection entry is a row of the hidden states against a row of the weight matrix plus the bias. A score
  is the head's query row against the head's key row, times one eighth, plus the mask at the key position; it
  is capped by thirty times the hyperbolic tangent of one thirtieth of it and then rectified. A row of rectified
  scores is divided by its sum plus a small word, and the context entry is that row against the head's column of
  values. Column o of the width-1024 axis is head o / 64, lane o % 64.
-/
import Idealize.ShloMosaic.PureOps.Ideal
import Idealize.ShloMosaic.Lib.ValueIdx

noncomputable section

namespace Cert.Spec

open Idealize.ShloMosaic Idealize.ShloMosaic.ValueIdx

/-- Hidden states, and the result: batch, position, column. -/
abbrev Arr3 := (⟨3, ![4, 2048, 1024]⟩ : Shape).Idx → EReal
/-- The additive mask: batch, two unit axes, key position. -/
abbrev ArrM := (⟨4, ![4, 1, 1, 2048]⟩ : Shape).Idx → EReal
/-- A weight matrix: output column, input column. -/
abbrev Arr2 := (⟨2, ![1024, 1024]⟩ : Shape).Idx → EReal
/-- A bias: output column. -/
abbrev Arr1 := (⟨1, ![1024]⟩ : Shape).Idx → EReal
/-- A projected array seen per batch, position, column. -/
abbrev Proj := Fin 4 → Fin 2048 → Fin 1024 → EReal

/-- Lane d of head h is column 64 h + d. -/
def col (h : Fin 16) (d : Fin 64) : Fin 1024 := ⟨h.val * 64 + d.val, by omega⟩

/-- The small word added to a row sum before dividing (the same word in both programs; never evaluated). -/
def tiny : EReal := Ideal.ofBits .f32 0x358637BD#32

/-- The hidden states with batch and position flattened into one row axis. -/
abbrev Flat := (⟨2, ![8192, 1024]⟩ : Shape).Idx → EReal
/-- A bias laid out as one row. -/
abbrev Row1 := (⟨2, ![1, 1024]⟩ : Shape).Idx → EReal

/-- One entry of the flattened projection: row r of the flattened hidden states against row o of the weights, plus
    the bias row at o. -/
def rows (a : Flat) (W : Arr2) (bias : Row1) (r : Fin 8192) (o : Fin 1024) : EReal :=
  (∑ k : Fin 1024, a (ix2 r k) * W (ix2 o k)) + bias (ix2 0 o)

/-- One projection entry: the position's row of hidden states against row o of the weights, plus the bias. -/
def proj (x : Arr3) (W : Arr2) (bias : Arr1) : Proj := fun b s o =>
  (∑ k : Fin 1024, x (ix3 b s k) * W (ix2 o k)) + bias (ix1 o)

/-- A projected array seen per batch, position, head, lane. -/
abbrev Heads := Fin 4 → Fin 2048 → Fin 16 → Fin 64 → EReal
/-- The mask seen per batch and key position. -/
abbrev Mask := Fin 4 → Fin 2048 → EReal

/-- A projection split into heads: lane d of head h is column 64 h + d. -/
def heads (p : Proj) : Heads := fun b s h d => p b s (col h d)

/-- One rectified capped score from a query row, a key row and the mask entry: the rows' product over the 64
    lanes, times one eighth, plus the mask; then thirty times the hyperbolic tangent of one thirtieth of that;
    then the larger of that and zero. -/
def score1 (qrow krow : Fin 64 → EReal) (mk : EReal) : EReal :=
  max (Ideal.tanh ((((∑ e : Fin 64, qrow e * krow e) * ((1 / 8 : ℝ) : EReal)) + mk) * ((1 / 30 : ℝ) : EReal))
    * ((30 : ℝ) : EReal)) 0

/-- One context entry from a row of scores and a column of values: each score over the row's sum plus the small
    word, against the values. -/
def ctx1 (sc vcol : Fin 2048 → EReal) : EReal :=
  ∑ t : Fin 2048, Ideal.div (sc t) ((∑ u : Fin 2048, sc u) + tiny) * vcol t

/-- The score of query position s against key position t in head h of batch b. -/
def score (q k : Heads) (mask : Mask) (b : Fin 4) (h : Fin 16) (s t : Fin 2048) : EReal :=
  score1 (q b s h) (k b t h) (mask b t)

/-- The context entry at batch b, head h, position s, lane d. -/
def ctx (q k v : Heads) (mask : Mask) (b : Fin 4) (h : Fin 16) (s : Fin 2048) (d : Fin 64) : EReal :=
  ctx1 (fun t => score q k mask b h s t) (fun t => v b t h d)

/-- The whole result: entry (b, s, o) is the context entry of head o / 64 at lane o % 64. -/
def G (x : Arr3) (mask : ArrM) (Wq : Arr2) (bq : Arr1) (Wk : Arr2) (bk : Arr1) (Wv : Arr2) (bv : Arr1) : Arr3 := fun i =>
  ctx (heads (proj x Wq bq)) (heads (proj x Wk bk)) (heads (proj x Wv bv)) (fun b t => mask (ix4 b 0 0 t)) (i 0)
    ⟨(i 2).val / 64, Nat.div_lt_of_lt_mul (i 2).isLt⟩ (i 1) ⟨(i 2).val % 64, Nat.mod_lt _ (by norm_num)⟩

/-- A column splits back into its head and lane. -/
theorem col_div (h : Fin 16) (d : Fin 64) : (col h d).val / 64 = h.val := by
  show (h.val * 64 + d.val) / 64 = h.val
  omega

theorem col_mod (h : Fin 16) (d : Fin 64) : (col h d).val % 64 = d.val := by
  show (h.val * 64 + d.val) % 64 = d.val
  omega

/-- Multiplying by the reciprocal of a nonzero real is dividing by it, on every extended real. -/
theorem div_eight (x : EReal) : Ideal.div x ((8 : ℝ) : EReal) = x * ((1 / 8 : ℝ) : EReal) :=
  Ideal.div_coe (by norm_num) x

theorem div_thirty (x : EReal) : Ideal.div x ((30 : ℝ) : EReal) = x * ((1 / 30 : ℝ) : EReal) :=
  Ideal.div_coe (by norm_num) x

end Cert.Spec

end
-- ==== Proof.Layout.lean ====
/-
  The program's five reshapes read at an entry. A reshape keeps the row-major position, so each is an identity
  between two row-major positions: flattening (batch, position) into one row axis puts (b, s) at row 2048 b + s;
  a bias becomes a one-row matrix; splitting a width-1024 column axis into 16 heads of 64 lanes puts column o at
  head o / 64, lane o % 64, and lane d of head h at column 64 h + d; dropping one of the mask's two unit axes moves
  nothing.
-/
import Idealize.ShloMosaic.Lib.Pipeline.Value
import Idealize.ShloMosaic.Lib.ValueIdx

noncomputable section

namespace Cert.Layout

open Idealize.ShloMosaic Idealize.ShloMosaic.ValueIdx

variable {α : Type}

/-- The flattened hidden states at row 2048 b + s are the hidden states at (b, s). -/
theorem flat_apply (x : (⟨3, ![4, 2048, 1024]⟩ : Shape).Idx → α)
    (h : (⟨3, ![4, 2048, 1024]⟩ : Shape).ShapeCasts ⟨2, ![8192, 1024]⟩) (b : Fin 4) (s : Fin 2048) (k : Fin 1024) :
    shapeCast ⟨2, ![8192, 1024]⟩ x h (ix2 (⟨b.val * 2048 + s.val, by omega⟩ : Fin 8192) k) = x (ix3 b s k) := by
  refine shapeCast_apply x h _ _ ?_
  rw [Shape.rowMajor_val_three, Shape.rowMajor_val_two]
  show (b.val * 2048 + s.val) * 1024 + k.val = (b.val * 2048 + s.val) * 1024 + k.val
  rfl

/-- A bias laid out as one row, at column o, is the bias at o. -/
theorem row_apply (x : (⟨1, ![1024]⟩ : Shape).Idx → α)
    (h : (⟨1, ![1024]⟩ : Shape).ShapeCasts ⟨2, ![1, 1024]⟩) (o : Fin 1024) :
    shapeCast ⟨2, ![1, 1024]⟩ x h (ix2 (0 : Fin 1) o) = x (ix1 o) := by
  refine shapeCast_apply x h _ _ ?_
  rw [Shape.rowMajor_val_one, Shape.rowMajor_val_two]
  show o.val = 0 * 1024 + o.val
  omega

/-- A flat projection split into heads: (b, s, h, d) is row 2048 b + s, column 64 h + d. -/
theorem split_apply (y : (⟨2, ![8192, 1024]⟩ : Shape).Idx → α)
    (h : (⟨2, ![8192, 1024]⟩ : Shape).ShapeCasts ⟨4, ![4, 2048, 16, 64]⟩) (b : Fin 4) (s : Fin 2048) (hd : Fin 16) (d : Fin 64) :
    shapeCast ⟨4, ![4, 2048, 16, 64]⟩ y h (ix4 b s hd d)
      = y (ix2 (⟨b.val * 2048 + s.val, by omega⟩ : Fin 8192) (⟨hd.val * 64 + d.val, by omega⟩ : Fin 1024)) := by
  refine shapeCast_apply y h _ _ ?_
  rw [Shape.rowMajor_val_two, Shape.rowMajor_val_four]
  show (b.val * 2048 + s.val) * 1024 + (hd.val * 64 + d.val) = ((b.val * 2048 + s.val) * 16 + hd.val) * 64 + d.val
  omega

/-- The mask with one unit axis dropped, at (b, 0, t), is the mask at (b, 0, 0, t). -/
theorem mask_apply (x : (⟨4, ![4, 1, 1, 2048]⟩ : Shape).Idx → α)
    (h : (⟨4, ![4, 1, 1, 2048]⟩ : Shape).ShapeCasts ⟨3, ![4, 1, 2048]⟩) (b : Fin 4) (t : Fin 2048) :
    shapeCast ⟨3, ![4, 1, 2048]⟩ x h (ix3 b (0 : Fin 1) t) = x (ix4 b (0 : Fin 1) (0 : Fin 1) t) := by
  refine shapeCast_apply x h _ _ ?_
  rw [Shape.rowMajor_val_four, Shape.rowMajor_val_three]
  show ((b.val * 1 + 0) * 1 + 0) * 2048 + t.val = (b.val * 1 + 0) * 2048 + t.val
  omega

/-- The per-head result merged back: column o of (b, s) is head o / 64, lane o % 64. -/
theorem merge_apply (y : (⟨4, ![4, 2048, 16, 64]⟩ : Shape).Idx → α)
    (h : (⟨4, ![4, 2048, 16, 64]⟩ : Shape).ShapeCasts ⟨3, ![4, 2048, 1024]⟩) (b : Fin 4) (s : Fin 2048) (o : Fin 1024) :
    shapeCast ⟨3, ![4, 2048, 1024]⟩ y h (ix3 b s o)
      = y (ix4 b s (⟨o.val / 64, by omega⟩ : Fin 16) (⟨o.val % 64, by omega⟩ : Fin 64)) := by
  refine shapeCast_apply y h _ _ ?_
  rw [Shape.rowMajor_val_four, Shape.rowMajor_val_three]
  show ((b.val * 2048 + s.val) * 16 + o.val / 64) * 64 + o.val % 64 = (b.val * 2048 + s.val) * 1024 + o.val
  omega

end Cert.Layout

end
-- ==== Proof.ProjRegionPayload.lean ====
import Idealize.ShloMosaic.Lib.ValueIdx
import Idealize.ShloMosaic.Lib.Pipeline.Value
import Idealize.ShloMosaic.PureOps.Ideal.Laws
import proofs.«116430_j893353197834_2_alg».proof.Proof.Gen.KernelIdeal.Skeleton
import proofs.«116430_j893353197834_2_alg».proof.Proof.Spec

/-!
  One entry of a projection block. The projection call's body multiplies its 512 rows of hidden states by the
  transpose of a 1024 x 1024 weight matrix, contracting the 1024 input columns, and adds the bias row to every
  row of the product. On the extended reals the narrowing of the rows and of the result changes nothing, so entry
  (p, q) of the block is the sum over k of row p at k times weight row q at k, plus the bias at q.
-/

noncomputable section

namespace Cert.KernelIdeal.Hand

open Idealize.ShloMosaic Idealize.ShloMosaic.ValueIdx Idealize.SL.Sem Cert.KernelIdeal Cert.KernelIdeal.Gen

/-- The left operand of the product at output entry i and contraction index k sits in row i 0. -/
theorem lhs_row (i : S512x1024.Idx) (k : dot_S512x1024_S1024x1024_S512x1024_1_1_0_0_n_n.contr.Idx) :
    (dot_S512x1024_S1024x1024_S512x1024_1_1_0_0_n_n.lhsIdx i k 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl

/-- The right operand at output entry i sits in weight row i 1: the weights enter transposed. -/
theorem rhs_row (i : S512x1024.Idx) (k : dot_S512x1024_S1024x1024_S512x1024_1_1_0_0_n_n.contr.Idx) :
    (dot_S512x1024_S1024x1024_S512x1024_1_1_0_0_n_n.rhsIdx i k 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl

/-- The product into the zero accumulator, at entry (p, q): the sum over the 1024 input columns of row p of the
    left operand times row q of the right one. -/
theorem contraction_apply (a : FVec Ideal S512x1024 .bf16) (w : FVec Ideal S1024x1024 .bf16) (p : Fin 512) (q : Fin 1024) :
    FloatOps.matmul dot_S512x1024_S1024x1024_S512x1024_1_1_0_0_n_n none a w (constant S512x1024 .f32 0x00000000#32) (ix2 p q)
      = ∑ k : Fin 1024, a (ix2 p k) * w (ix2 q k) := by
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact lhs_row _ _
    | ⟨1, _⟩ => exact (dot_S512x1024_S1024x1024_S512x1024_1_1_0_0_n_n.lhsIdx_val_of_single rfl (ix2 p q) _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact rhs_row _ _
    | ⟨1, _⟩ => exact (dot_S512x1024_S1024x1024_S512x1024_1_1_0_0_n_n.rhsIdx_val_of_single rfl (ix2 p q) _).trans hk)
  rw [el, er]

/-- The bias row repeated down the 512 rows reads, at (p, q), the row's entry q. -/
theorem bias_apply (bs : Vec Ideal S1x1024 .f32) (p : Fin 512) (q : Fin 1024) :
    broadcastTo S512x1024 bs broadcasts_S1x1024_S512x1024 (ix2 p q) = bs (ix2 0 q) := by
  refine broadcastTo_apply bs broadcasts_S1x1024_S512x1024 (ix2 p q) (ix2 0 q) fun a => ?_
  match a with
  | ⟨0, _⟩ => rfl
  | ⟨1, _⟩ => show q.val = if (1024 : Nat) = 1 then 0 else q.val; rw [if_neg (by decide)]

/-- Entry (p, q) of the query projection's block. -/
theorem payload_q (x0 : Vec Ideal S512x1024 .f32) (w : Vec Ideal S1024x1024 .bf16) (bs : Vec Ideal S1x1024 .f32) (p : Fin 512) (q : Fin 1024) :
    k0_pay2 (F := Ideal) x0 w bs (ix2 p q) = (∑ k : Fin 1024, x0 (ix2 p k) * w (ix2 q k)) + bs (ix2 0 q) := by
  unfold k0_pay2 k0_pay1
  simp only [shapeCast_self]
  rw [truncf_apply, addf_apply, bias_apply]
  refine congrArg (· + bs (ix2 0 q)) ?_
  exact contraction_apply _ w p q

/-- Entry (p, q) of the key projection's block. -/
theorem payload_k (x0 : Vec Ideal S512x1024 .f32) (w : Vec Ideal S1024x1024 .bf16) (bs : Vec Ideal S1x1024 .f32) (p : Fin 512) (q : Fin 1024) :
    k0_pay3 (F := Ideal) x0 w bs (ix2 p q) = (∑ k : Fin 1024, x0 (ix2 p k) * w (ix2 q k)) + bs (ix2 0 q) := by
  unfold k0_pay3 k0_pay1
  simp only [shapeCast_self]
  rw [truncf_apply, addf_apply, bias_apply]
  refine congrArg (· + bs (ix2 0 q)) ?_
  exact contraction_apply _ w p q

/-- Entry (p, q) of the value projection's block. -/
theorem payload_v (x0 : Vec Ideal S512x1024 .f32) (w : Vec Ideal S1024x1024 .bf16) (bs : Vec Ideal S1x1024 .f32) (p : Fin 512) (q : Fin 1024) :
    k0_pay4 (F := Ideal) x0 w bs (ix2 p q) = (∑ k : Fin 1024, x0 (ix2 p k) * w (ix2 q k)) + bs (ix2 0 q) := by
  unfold k0_pay4 k0_pay1
  simp only [shapeCast_self]
  rw [truncf_apply, addf_apply, bias_apply]
  refine congrArg (· + bs (ix2 0 q)) ?_
  exact contraction_apply _ w p q

/-- A block entry as an entry of the whole projection: when row p of the block is row r of the flattened hidden
    states, and the block's weight row q and bias entry q are the arrays', the sum and the bias are those of the
    flattened projection at (r, q). -/
theorem rows_of_block (a : Cert.Spec.Flat) (W : Cert.Spec.Arr2) (b : Cert.Spec.Row1)
    (x0 : Vec Ideal S512x1024 .f32) (w : Vec Ideal S1024x1024 .bf16) (bs : Vec Ideal S1x1024 .f32)
    (r : Fin 8192) (p : Fin 512) (q : Fin 1024)
    (hx : ∀ k : Fin 1024, x0 (ix2 p k) = a (ix2 r k)) (hw : ∀ k : Fin 1024, w (ix2 q k) = W (ix2 q k))
    (hb : bs (ix2 0 q) = b (ix2 0 q)) :
    (∑ k : Fin 1024, x0 (ix2 p k) * w (ix2 q k)) + bs (ix2 0 q) = Cert.Spec.rows a W b r q := by
  unfold Cert.Spec.rows
  rw [hb]
  exact congrArg (· + b (ix2 0 q)) (Finset.sum_congr rfl fun k _ => by rw [hx k, hw k])

end Cert.KernelIdeal.Hand

end
-- ==== Proof.ProjRegionBlocks.lean ====
import Idealize.ShloMosaic.Lib.ValueIdx
import Idealize.ShloMosaic.Lib.Pipeline.Value
import proofs.«116430_j893353197834_2_alg».proof.Proof.Gen.KernelIdeal.Frame

/-!
  Where the projection call's windows sit over its 16 grid points, and what each input window's block holds.
  Point t sees rows 512 t … 512 t + 511 of the flattened hidden states and writes the same rows of the three
  projections; the three weight matrices and the three bias rows are seen whole at every point. An entry of a
  block is the array's entry at block index times block size plus the coordinate inside the block, axis by axis.
-/

noncomputable section

namespace Cert.KernelIdeal.Hand

open Idealize.ShloMosaic Idealize.ShloMosaic.ValueIdx Idealize.ShloMosaic.TcCoe Idealize.SL.Sem Cert.KernelIdeal Cert.KernelIdeal.Gen

/-- A pair of zero offsets is the zero offset on both axes. -/
theorem zero_offsets : (![0, 0] : Fin 2 → Nat) = fun _ => 0 := funext fun a => by fin_cases a <;> rfl

/-- The hidden-state rows' window sits at block (t, 0) at point t. -/
theorem index_rows : ∀ t : Fin cfg0.N, win0_0.index t (0 : Fin 2) = t.val ∧ win0_0.index t (1 : Fin 2) = 0 :=
  (by decide +kernel : ∀ t : Fin grid0.N, _)

/-- The query weights' window sits at block (0, 0) at every point. -/
theorem index_wq : ∀ t : Fin cfg0.N, win0_1.index t (0 : Fin 2) = 0 ∧ win0_1.index t (1 : Fin 2) = 0 :=
  (by decide +kernel : ∀ t : Fin grid0.N, _)

/-- The key weights' window sits at block (0, 0) at every point. -/
theorem index_wk : ∀ t : Fin cfg0.N, win0_2.index t (0 : Fin 2) = 0 ∧ win0_2.index t (1 : Fin 2) = 0 :=
  (by decide +kernel : ∀ t : Fin grid0.N, _)

/-- The value weights' window sits at block (0, 0) at every point. -/
theorem index_wv : ∀ t : Fin cfg0.N, win0_3.index t (0 : Fin 2) = 0 ∧ win0_3.index t (1 : Fin 2) = 0 :=
  (by decide +kernel : ∀ t : Fin grid0.N, _)

/-- The query bias's window sits at block (0, 0) at every point. -/
theorem index_bq : ∀ t : Fin cfg0.N, win0_4.index t (0 : Fin 2) = 0 ∧ win0_4.index t (1 : Fin 2) = 0 :=
  (by decide +kernel : ∀ t : Fin grid0.N, _)

/-- The key bias's window sits at block (0, 0) at every point. -/
theorem index_bk : ∀ t : Fin cfg0.N, win0_5.index t (0 : Fin 2) = 0 ∧ win0_5.index t (1 : Fin 2) = 0 :=
  (by decide +kernel : ∀ t : Fin grid0.N, _)

/-- The value bias's window sits at block (0, 0) at every point. -/
theorem index_bv : ∀ t : Fin cfg0.N, win0_6.index t (0 : Fin 2) = 0 ∧ win0_6.index t (1 : Fin 2) = 0 :=
  (by decide +kernel : ∀ t : Fin grid0.N, _)

/-- The query projection's window sits at block (t, 0) at point t. -/
theorem index_q : ∀ t : Fin cfg0.N, win0_7.index t (0 : Fin 2) = t.val ∧ win0_7.index t (1 : Fin 2) = 0 :=
  (by decide +kernel : ∀ t : Fin grid0.N, _)

/-- The key projection's window sits at block (t, 0) at point t. -/
theorem index_k : ∀ t : Fin cfg0.N, win0_8.index t (0 : Fin 2) = t.val ∧ win0_8.index t (1 : Fin 2) = 0 :=
  (by decide +kernel : ∀ t : Fin grid0.N, _)

/-- The value projection's window sits at block (t, 0) at point t. -/
theorem index_v : ∀ t : Fin cfg0.N, win0_9.index t (0 : Fin 2) = t.val ∧ win0_9.index t (1 : Fin 2) = 0 :=
  (by decide +kernel : ∀ t : Fin grid0.N, _)

section
variable (V : (c : Dev nD) → (b : Ref sig .tc) → Buf (Elt Ideal) ((c : Thread nD τ).loc b)) (c : Dev nD)

/-- Row p of the rows window's block at point t is row 512 t + p of the flattened hidden states. -/
theorem rows_block (t : Fin cfg0.N) (p : Fin 512) (k : Fin 1024) (r : Fin 8192) (hr : r.val = 512 * t.val + p.val) :
    (iblk0 (F := Ideal) V c 0 t : Vec Ideal S512x1024 .f32) (ix2 p k) = (V c main_v0 : S8192x1024.Idx → EReal) (ix2 r k) := by
  unfold iblk0
  rw [View.read_apply]
  show V c main_v0 _ = V c main_v0 _
  congr 1
  funext a
  apply Fin.ext
  match a with
  | ⟨0, _⟩ => show win0_0.index t 0 * 512 + 1 * p.val = r.val; rw [(index_rows t).1, hr]; omega
  | ⟨1, _⟩ => show win0_0.index t 1 * 1024 + 1 * k.val = k.val; rw [(index_rows t).2]; omega

/-- The query weights' window holds the whole weight array at every point. -/
theorem wq_block (t : Fin cfg0.N) (q k : Fin 1024) :
    (iblk0 (F := Ideal) V c 1 t : Vec Ideal S1024x1024 .bf16) (ix2 q k) = (V c main_v1 : S1024x1024.Idx → EReal) (ix2 q k) := by
  unfold iblk0
  rw [View.read_apply]
  show V c main_v1 _ = V c main_v1 _
  congr 1
  funext a
  apply Fin.ext
  match a with
  | ⟨0, _⟩ => show win0_1.index t 0 * 1024 + 1 * q.val = q.val; rw [(index_wq t).1]; omega
  | ⟨1, _⟩ => show win0_1.index t 1 * 1024 + 1 * k.val = k.val; rw [(index_wq t).2]; omega

/-- The key weights' window holds the whole weight array at every point. -/
theorem wk_block (t : Fin cfg0.N) (q k : Fin 1024) :
    (iblk0 (F := Ideal) V c 2 t : Vec Ideal S1024x1024 .bf16) (ix2 q k) = (V c main_v2 : S1024x1024.Idx → EReal) (ix2 q k) := by
  unfold iblk0
  rw [View.read_apply]
  show V c main_v2 _ = V c main_v2 _
  congr 1
  funext a
  apply Fin.ext
  match a with
  | ⟨0, _⟩ => show win0_2.index t 0 * 1024 + 1 * q.val = q.val; rw [(index_wk t).1]; omega
  | ⟨1, _⟩ => show win0_2.index t 1 * 1024 + 1 * k.val = k.val; rw [(index_wk t).2]; omega

/-- The value weights' window holds the whole weight array at every point. -/
theorem wv_block (t : Fin cfg0.N) (q k : Fin 1024) :
    (iblk0 (F := Ideal) V c 3 t : Vec Ideal S1024x1024 .bf16) (ix2 q k) = (V c main_v3 : S1024x1024.Idx → EReal) (ix2 q k) := by
  unfold iblk0
  rw [View.read_apply]
  show V c main_v3 _ = V c main_v3 _
  congr 1
  funext a
  apply Fin.ext
  match a with
  | ⟨0, _⟩ => show win0_3.index t 0 * 1024 + 1 * q.val = q.val; rw [(index_wv t).1]; omega
  | ⟨1, _⟩ => show win0_3.index t 1 * 1024 + 1 * k.val = k.val; rw [(index_wv t).2]; omega

/-- The query bias's window holds the whole bias row at every point. -/
theorem bq_block (t : Fin cfg0.N) (q : Fin 1024) :
    (iblk0 (F := Ideal) V c 4 t : Vec Ideal S1x1024 .f32) (ix2 0 q) = (V c main_v4 : S1x1024.Idx → EReal) (ix2 0 q) := by
  unfold iblk0
  rw [View.read_apply]
  show V c main_v4 _ = V c main_v4 _
  congr 1
  funext a
  apply Fin.ext
  match a with
  | ⟨0, _⟩ => show win0_4.index t 0 * 1 + 1 * 0 = 0; rw [(index_bq t).1]
  | ⟨1, _⟩ => show win0_4.index t 1 * 1024 + 1 * q.val = q.val; rw [(index_bq t).2]; omega

/-- The key bias's window holds the whole bias row at every point. -/
theorem bk_block (t : Fin cfg0.N) (q : Fin 1024) :
    (iblk0 (F := Ideal) V c 5 t : Vec Ideal S1x1024 .f32) (ix2 0 q) = (V c main_v5 : S1x1024.Idx → EReal) (ix2 0 q) := by
  unfold iblk0
  rw [View.read_apply]
  show V c main_v5 _ = V c main_v5 _
  congr 1
  funext a
  apply Fin.ext
  match a with
  | ⟨0, _⟩ => show win0_5.index t 0 * 1 + 1 * 0 = 0; rw [(index_bk t).1]
  | ⟨1, _⟩ => show win0_5.index t 1 * 1024 + 1 * q.val = q.val; rw [(index_bk t).2]; omega

/-- The value bias's window holds the whole bias row at every point. -/
theorem bv_block (t : Fin cfg0.N) (q : Fin 1024) :
    (iblk0 (F := Ideal) V c 6 t : Vec Ideal S1x1024 .f32) (ix2 0 q) = (V c main_v6 : S1x1024.Idx → EReal) (ix2 0 q) := by
  unfold iblk0
  rw [View.read_apply]
  show V c main_v6 _ = V c main_v6 _
  congr 1
  funext a
  apply Fin.ext
  match a with
  | ⟨0, _⟩ => show win0_6.index t 0 * 1 + 1 * 0 = 0; rw [(index_bv t).1]
  | ⟨1, _⟩ => show win0_6.index t 1 * 1024 + 1 * q.val = q.val; rw [(index_bv t).2]; omega

end

end Cert.KernelIdeal.Hand

end
-- ==== Proof.ProjRegionQuery.lean ====
import Idealize.ShloMosaic.Lib.ValueIdx
import Idealize.ShloMosaic.Lib.Pipeline.Value
import proofs.«116430_j893353197834_2_alg».proof.Proof.Gen.KernelIdeal.Frame
import proofs.«116430_j893353197834_2_alg».proof.Proof.Spec
import proofs.«116430_j893353197834_2_alg».proof.Proof.ProjRegionPayload
import proofs.«116430_j893353197834_2_alg».proof.Proof.ProjRegionBlocks

/-!
  The query projection's array after the projection call's 16 grid points. Point t writes back rows
  512 t … 512 t + 511: entry (p, q) of its block is row 512 t + p of the flattened hidden states against row q of
  the query weights plus the query bias at q, which is the flattened projection at (512 t + p, q). Row r of the
  array lies in the block of point r / 512, so the 16 blocks cover the array and it ends holding the flattened
  projection everywhere.
-/

noncomputable section

namespace Cert.KernelIdeal.Hand

open Idealize.ShloMosaic Idealize.ShloMosaic.ValueIdx Idealize.ShloMosaic.TcCoe Idealize.SL.Sem Cert.KernelIdeal Cert.KernelIdeal.Gen

section
variable (V : (c : Dev nD) → (b : Ref sig .tc) → Buf (Elt Ideal) ((c : Thread nD τ).loc b)) (c : Dev nD)

/-- What point t writes back to the query projection's array is its block of the flattened projection. -/
theorem flushed_q (t : Fin cfg0.N) :
    (dat0 (F := Ideal) V c).flushed 7 t = ((cfg0.win 7).blk t).view.read (Elt Ideal)
      (fun i : S8192x1024.Idx => Cert.Spec.rows (V c main_v0) (V c main_v1) (V c main_v4) (i 0) (i 1)) := by
  show (cfg0.win 7).cut (grid0.coords t) ((dat0 V c).after 7 t) = _
  rw [after0_7]
  unfold out0_7
  rw [View.canon_unit_zero zero_offsets]
  simp only [View.ld_unit_zero (S := S512x1024) zero_offsets, View.ld_unit_zero (S := S1024x1024) zero_offsets, View.ld_unit_zero (S := S1x1024) zero_offsets]
  funext j
  obtain ⟨p, q, rfl⟩ : ∃ (p : Fin 512) (q : Fin 1024), j = ix2 p q := ⟨j 0, j 1, eq_ix2 j⟩
  have hN : cfg0.N = 16 := N_0
  have ht : t.val < 16 := hN ▸ t.isLt
  refine ((payload_q _ _ _ p q).trans (rows_of_block (V c main_v0) (V c main_v1) (V c main_v4) _ _ _ ⟨512 * t.val + p.val, by omega⟩ p q
    (fun k => rows_block V c t p k _ rfl) (fun k => wq_block V c t q k) (bq_block V c t q))).trans ?_
  rw [View.read_apply]
  show Cert.Spec.rows _ _ _ _ _ = Cert.Spec.rows _ _ _ _ _
  congr 1
  · apply Fin.ext
    show 512 * t.val + p.val = win0_7.index t 0 * 512 + 1 * p.val
    rw [(index_q t).1]; omega
  · apply Fin.ext
    show q.val = win0_7.index t 1 * 1024 + 1 * q.val
    rw [(index_q t).2]; omega

/-- An entry of the array is in point t's block iff each coordinate is in the block's range on its axis. -/
theorem mem_block_q (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v7_0).slice (win0_7.rect t)).set ↔ _
  rw [View.set_slice_whole, Rect.mem_set_unit]
  exact Iff.rfl

/-- Every entry of the array is written back: row r by point r / 512. -/
theorem cover_q (i : S8192x1024.Idx) : ∃ t : Fin cfg0.N, (cfg0.win 7).flush t = true ∧ i ∈ ((cfg0.win 7).blk t).view.set := by
  have hN : cfg0.N = 16 := N_0
  have h0 : (i 0).val < 8192 := (i 0).isLt
  have h1 : (i 1).val < 1024 := (i 1).isLt
  refine ⟨⟨(i 0).val / 512, by rw [hN]; omega⟩, flush0_7 _, ?_⟩
  rw [mem_block_q]
  intro a
  match a with
  | ⟨0, _⟩ =>
    show win0_7.index _ (0 : Fin 2) * 512 ≤ (i 0).val ∧ (i 0).val < win0_7.index _ (0 : Fin 2) * 512 + 512
    rw [(index_q _).1]
    show (i 0).val / 512 * 512 ≤ (i 0).val ∧ (i 0).val < (i 0).val / 512 * 512 + 512
    omega
  | ⟨1, _⟩ =>
    show win0_7.index _ (1 : Fin 2) * 1024 ≤ (i 1).val ∧ (i 1).val < win0_7.index _ (1 : Fin 2) * 1024 + 1024
    rw [(index_q _).2]
    omega

/-- So the array ends holding the flattened query projection. -/
theorem array_q :
    (dat0 (F := Ideal) V c).arrAt 7 cfg0.N = fun i : S8192x1024.Idx =>
      Cert.Spec.rows (V c main_v0) (V c main_v1) (V c main_v4) (i 0) (i 1) :=
  (dat0 (F := Ideal) V c).arrAt_eq_of_cover 7 _ (fun t _ => flushed_q V c t) cover_q

end

end Cert.KernelIdeal.Hand

end
-- ==== Proof.ProjRegionKey.lean ====
import Idealize.ShloMosaic.Lib.ValueIdx
import Idealize.ShloMosaic.Lib.Pipeline.Value
import proofs.«116430_j893353197834_2_alg».proof.Proof.Gen.KernelIdeal.Frame
import proofs.«116430_j893353197834_2_alg».proof.Proof.Spec
import proofs.«116430_j893353197834_2_alg».proof.Proof.ProjRegionPayload
import proofs.«116430_j893353197834_2_alg».proof.Proof.ProjRegionBlocks

/-!
  The key projection's array after the projection call's 16 grid points. Point t writes back rows
  512 t … 512 t + 511: entry (p, q) of its block is row 512 t + p of the flattened hidden states against row q of
  the key weights plus the key bias at q, which is the flattened projection at (512 t + p, q). Row r of the
  array lies in the block of point r / 512, so the 16 blocks cover the array and it ends holding the flattened
  projection everywhere.
-/

noncomputable section

namespace Cert.KernelIdeal.Hand

open Idealize.ShloMosaic Idealize.ShloMosaic.ValueIdx Idealize.ShloMosaic.TcCoe Idealize.SL.Sem Cert.KernelIdeal Cert.KernelIdeal.Gen

section
variable (V : (c : Dev nD) → (b : Ref sig .tc) → Buf (Elt Ideal) ((c : Thread nD τ).loc b)) (c : Dev nD)

/-- What point t writes back to the key projection's array is its block of the flattened projection. -/
theorem flushed_k (t : Fin cfg0.N) :
    (dat0 (F := Ideal) V c).flushed 8 t = ((cfg0.win 8).blk t).view.read (Elt Ideal)
      (fun i : S8192x1024.Idx => Cert.Spec.rows (V c main_v0) (V c main_v2) (V c main_v5) (i 0) (i 1)) := by
  show (cfg0.win 8).cut (grid0.coords t) ((dat0 V c).after 8 t) = _
  rw [after0_8]
  unfold out0_8
  rw [View.canon_unit_zero zero_offsets]
  simp only [View.ld_unit_zero (S := S512x1024) zero_offsets, View.ld_unit_zero (S := S1024x1024) zero_offsets, View.ld_unit_zero (S := S1x1024) zero_offsets]
  funext j
  obtain ⟨p, q, rfl⟩ : ∃ (p : Fin 512) (q : Fin 1024), j = ix2 p q := ⟨j 0, j 1, eq_ix2 j⟩
  have hN : cfg0.N = 16 := N_0
  have ht : t.val < 16 := hN ▸ t.isLt
  refine ((payload_k _ _ _ p q).trans (rows_of_block (V c main_v0) (V c main_v2) (V c main_v5) _ _ _ ⟨512 * t.val + p.val, by omega⟩ p q
    (fun k => rows_block V c t p k _ rfl) (fun k => wk_block V c t q k) (bk_block V c t q))).trans ?_
  rw [View.read_apply]
  show Cert.Spec.rows _ _ _ _ _ = Cert.Spec.rows _ _ _ _ _
  congr 1
  · apply Fin.ext
    show 512 * t.val + p.val = win0_8.index t 0 * 512 + 1 * p.val
    rw [(index_k t).1]; omega
  · apply Fin.ext
    show q.val = win0_8.index t 1 * 1024 + 1 * q.val
    rw [(index_k t).2]; omega

/-- An entry of the array is in point t's block iff each coordinate is in the block's range on its axis. -/
theorem mem_block_k (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v7_1).slice (win0_8.rect t)).set ↔ _
  rw [View.set_slice_whole, Rect.mem_set_unit]
  exact Iff.rfl

/-- Every entry of the array is written back: row r by point r / 512. -/
theorem cover_k (i : S8192x1024.Idx) : ∃ t : Fin cfg0.N, (cfg0.win 8).flush t = true ∧ i ∈ ((cfg0.win 8).blk t).view.set := by
  have hN : cfg0.N = 16 := N_0
  have h0 : (i 0).val < 8192 := (i 0).isLt
  have h1 : (i 1).val < 1024 := (i 1).isLt
  refine ⟨⟨(i 0).val / 512, by rw [hN]; omega⟩, flush0_8 _, ?_⟩
  rw [mem_block_k]
  intro a
  match a with
  | ⟨0, _⟩ =>
    show win0_8.index _ (0 : Fin 2) * 512 ≤ (i 0).val ∧ (i 0).val < win0_8.index _ (0 : Fin 2) * 512 + 512
    rw [(index_k _).1]
    show (i 0).val / 512 * 512 ≤ (i 0).val ∧ (i 0).val < (i 0).val / 512 * 512 + 512
    omega
  | ⟨1, _⟩ =>
    show win0_8.index _ (1 : Fin 2) * 1024 ≤ (i 1).val ∧ (i 1).val < win0_8.index _ (1 : Fin 2) * 1024 + 1024
    rw [(index_k _).2]
    omega

/-- So the array ends holding the flattened key projection. -/
theorem array_k :
    (dat0 (F := Ideal) V c).arrAt 8 cfg0.N = fun i : S8192x1024.Idx =>
      Cert.Spec.rows (V c main_v0) (V c main_v2) (V c main_v5) (i 0) (i 1) :=
  (dat0 (F := Ideal) V c).arrAt_eq_of_cover 8 _ (fun t _ => flushed_k V c t) cover_k

end

end Cert.KernelIdeal.Hand

end
-- ==== Proof.ProjRegionValue.lean ====
import Idealize.ShloMosaic.Lib.ValueIdx
import Idealize.ShloMosaic.Lib.Pipeline.Value
import proofs.«116430_j893353197834_2_alg».proof.Proof.Gen.KernelIdeal.Frame
import proofs.«116430_j893353197834_2_alg».proof.Proof.Spec
import proofs.«116430_j893353197834_2_alg».proof.Proof.ProjRegionPayload
import proofs.«116430_j893353197834_2_alg».proof.Proof.ProjRegionBlocks

/-!
  The value projection's array after the projection call's 16 grid points. Point t writes back rows
  512 t … 512 t + 511: entry (p, q) of its block is row 512 t + p of the flattened hidden states against row q of
  the value weights plus the value bias at q, which is the flattened projection at (512 t + p, q). Row r of the
  array lies in the block of point r / 512, so the 16 blocks cover the array and it ends holding the flattened
  projection everywhere.
-/

noncomputable section

namespace Cert.KernelIdeal.Hand

open Idealize.ShloMosaic Idealize.ShloMosaic.ValueIdx Idealize.ShloMosaic.TcCoe Idealize.SL.Sem Cert.KernelIdeal Cert.KernelIdeal.Gen

section
variable (V : (c : Dev nD) → (b : Ref sig .tc) → Buf (Elt Ideal) ((c : Thread nD τ).loc b)) (c : Dev nD)

/-- What point t writes back to the value projection's array is its block of the flattened projection. -/
theorem flushed_v (t : Fin cfg0.N) :
    (dat0 (F := Ideal) V c).flushed 9 t = ((cfg0.win 9).blk t).view.read (Elt Ideal)
      (fun i : S8192x1024.Idx => Cert.Spec.rows (V c main_v0) (V c main_v3) (V c main_v6) (i 0) (i 1)) := by
  show (cfg0.win 9).cut (grid0.coords t) ((dat0 V c).after 9 t) = _
  rw [after0_9]
  unfold out0_9
  rw [View.canon_unit_zero zero_offsets]
  simp only [View.ld_unit_zero (S := S512x1024) zero_offsets, View.ld_unit_zero (S := S1024x1024) zero_offsets, View.ld_unit_zero (S := S1x1024) zero_offsets]
  funext j
  obtain ⟨p, q, rfl⟩ : ∃ (p : Fin 512) (q : Fin 1024), j = ix2 p q := ⟨j 0, j 1, eq_ix2 j⟩
  have hN : cfg0.N = 16 := N_0
  have ht : t.val < 16 := hN ▸ t.isLt
  refine ((payload_v _ _ _ p q).trans (rows_of_block (V c main_v0) (V c main_v3) (V c main_v6) _ _ _ ⟨512 * t.val + p.val, by omega⟩ p q
    (fun k => rows_block V c t p k _ rfl) (fun k => wv_block V c t q k) (bv_block V c t q))).trans ?_
  rw [View.read_apply]
  show Cert.Spec.rows _ _ _ _ _ = Cert.Spec.rows _ _ _ _ _
  congr 1
  · apply Fin.ext
    show 512 * t.val + p.val = win0_9.index t 0 * 512 + 1 * p.val
    rw [(index_v t).1]; omega
  · apply Fin.ext
    show q.val = win0_9.index t 1 * 1024 + 1 * q.val
    rw [(index_v t).2]; omega

/-- An entry of the array is in point t's block iff each coordinate is in the block's range on its axis. -/
theorem mem_block_v (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v7_2).slice (win0_9.rect t)).set ↔ _
  rw [View.set_slice_whole, Rect.mem_set_unit]
  exact Iff.rfl

/-- Every entry of the array is written back: row r by point r / 512. -/
theorem cover_v (i : S8192x1024.Idx) : ∃ t : Fin cfg0.N, (cfg0.win 9).flush t = true ∧ i ∈ ((cfg0.win 9).blk t).view.set := by
  have hN : cfg0.N = 16 := N_0
  have h0 : (i 0).val < 8192 := (i 0).isLt
  have h1 : (i 1).val < 1024 := (i 1).isLt
  refine ⟨⟨(i 0).val / 512, by rw [hN]; omega⟩, flush0_9 _, ?_⟩
  rw [mem_block_v]
  intro a
  match a with
  | ⟨0, _⟩ =>
    show win0_9.index _ (0 : Fin 2) * 512 ≤ (i 0).val ∧ (i 0).val < win0_9.index _ (0 : Fin 2) * 512 + 512
    rw [(index_v _).1]
    show (i 0).val / 512 * 512 ≤ (i 0).val ∧ (i 0).val < (i 0).val / 512 * 512 + 512
    omega
  | ⟨1, _⟩ =>
    show win0_9.index _ (1 : Fin 2) * 1024 ≤ (i 1).val ∧ (i 1).val < win0_9.index _ (1 : Fin 2) * 1024 + 1024
    rw [(index_v _).2]
    omega

/-- So the array ends holding the flattened value projection. -/
theorem array_v :
    (dat0 (F := Ideal) V c).arrAt 9 cfg0.N = fun i : S8192x1024.Idx =>
      Cert.Spec.rows (V c main_v0) (V c main_v3) (V c main_v6) (i 0) (i 1) :=
  (dat0 (F := Ideal) V c).arrAt_eq_of_cover 9 _ (fun t _ => flushed_v V c t) cover_v

end

end Cert.KernelIdeal.Hand

end
-- ==== Proof.ProjRegion.lean ====
import Idealize.ShloMosaic.Lib.ValueIdx
import proofs.«116430_j893353197834_2_alg».proof.Proof.Gen.KernelIdeal.Frame
import proofs.«116430_j893353197834_2_alg».proof.Proof.Spec
import proofs.«116430_j893353197834_2_alg».proof.Proof.ProjRegionQuery
import proofs.«116430_j893353197834_2_alg».proof.Proof.ProjRegionKey
import proofs.«116430_j893353197834_2_alg».proof.Proof.ProjRegionValue

noncomputable section

namespace Cert.KernelIdeal.Hand

open Idealize.ShloMosaic Idealize.ShloMosaic.ValueIdx Idealize.ShloMosaic.TcCoe Idealize.SL.Sem Cert.KernelIdeal Cert.KernelIdeal.Gen

/-- The projection call's three output arrays after its 16 grid points, whatever the region finds in its seven input
    arrays: entry (r, o) is row r of the flattened hidden states against row o of that projection's weights, plus its
    bias at o. -/
theorem arr0_7 (V : (c : Dev nD) → (b : Ref sig .tc) → Buf (Elt Ideal) ((c : Thread nD τ).loc b)) (c : Dev nD) :
    (dat0 (F := Ideal) V c).arrAt 7 cfg0.N = fun i : S8192x1024.Idx =>
      Cert.Spec.rows (V c main_v0) (V c main_v1) (V c main_v4) (i 0) (i 1) :=
  array_q V c

theorem arr0_8 (V : (c : Dev nD) → (b : Ref sig .tc) → Buf (Elt Ideal) ((c : Thread nD τ).loc b)) (c : Dev nD) :
    (dat0 (F := Ideal) V c).arrAt 8 cfg0.N = fun i : S8192x1024.Idx =>
      Cert.Spec.rows (V c main_v0) (V c main_v2) (V c main_v5) (i 0) (i 1) :=
  array_k V c

theorem arr0_9 (V : (c : Dev nD) → (b : Ref sig .tc) → Buf (Elt Ideal) ((c : Thread nD τ).loc b)) (c : Dev nD) :
    (dat0 (F := Ideal) V c).arrAt 9 cfg0.N = fun i : S8192x1024.Idx =>
      Cert.Spec.rows (V c main_v0) (V c main_v3) (V c main_v6) (i 0) (i 1) :=
  array_v V c

end Cert.KernelIdeal.Hand

end
-- ==== Proof.Head.lean ====
/-
  One attention head of the kernel body as ONE term of its three sliced operands and the mask row, at any float
  instance: the 512 query rows against the 2048 key rows, times the scale word, plus the mask row broadcast over the
  queries, times the named thirtieth, the hyperbolic tangent, times the cap word, the larger of that and zero;
  each row over its lane sum plus the small word; that against the 2048 value rows; laid out as a
  1 x 512 x 1 x 64 piece of the output block. Every head's store in the printed body is this term at that head's
  slices, whatever the cut of the body into named pieces.
-/
import proofs.«116430_j893353197834_2_alg».proof.Proof.Gen.KernelIdeal

noncomputable section

namespace Cert.KernelIdeal.Hand

open Idealize.ShloMosaic Cert.KernelIdeal Cert.KernelIdeal.Gen

variable {F : FTy → Type} [FloatOps F] [Named F]

/-- The head's rectified capped scores, 512 query rows by 2048 key positions. -/
def headScores (qh : FVec F S512x64 .bf16) (kh : FVec F S2048x64 .bf16) (mk : FVec F S1x2048 .f32) : FVec F S512x2048 .f32 :=
  maximumf
    (mulf
      (tanh
        (mulf
          (addf
            (mulf (matmul dot_S512x64_S2048x64_S512x2048_1_1_0_0_n_n none qh kh (constant S512x2048 .f32 0x00000000#32))
              (broadcast S512x2048 (Scalar.ofBits .f32 0x3E000000#32)))
            (broadcastTo S512x2048 mk broadcasts_S1x2048_S512x2048))
          (broadcast S512x2048 (Named.named κ "inv_30" 0x3D088889#32))))
      (broadcast S512x2048 (Scalar.ofBits .f32 0x41F00000#32)))
    (broadcast S512x2048 (Scalar.ofBits .f32 0x00000000#32))

/-- The head's output piece from its scores and its value rows. -/
def headOut (r : FVec F S512x2048 .f32) (vh : FVec F S2048x64 .bf16) : FVec F S1x512x1x64 .f32 :=
  shapeCast S1x512x1x64
    (matmul dot_S512x2048_S2048x64_S512x64_1_0_0_1_n_n none
      (truncf .bf16
        (divf r
          (broadcastTo S512x2048
            (addf
              (shapeCast S512x1 (multiReduction .add [1] S512 r 0x00000000#32 reduces_S512x2048_S512 (.inl rfl) rfl) shapeCasts_S512_S512x1)
              (broadcast S512x1 (Scalar.ofBits .f32 0x358637BD#32)))
            broadcasts_S512x1_S512x2048))
        bitsLt_bf16_f32)
      vh (constant S512x64 .f32 0x00000000#32))
    shapeCasts_S512x64_S1x512x1x64

/-- One head from its sliced operands. -/
def headOf (qh : FVec F S512x64 .bf16) (kh vh : FVec F S2048x64 .bf16) (mk : FVec F S1x2048 .f32) : FVec F S1x512x1x64 .f32 :=
  headOut (headScores qh kh mk) vh

end Cert.KernelIdeal.Hand

end
-- ==== Proof.Consts.lean ====
/-
  The float words the two programs spell, as the extended reals they denote: the score scale one eighth, the
  reference's divisors eight and thirty, and the cap thirty. Each word is an exact dyadic or integer, so its value
  is read off the sign, exponent and fraction fields once, here.
-/
import Idealize.ShloMosaic.PureOps.Ideal

noncomputable section

namespace Cert.Consts

open Idealize.ShloMosaic

/-- The word of 0.125 denotes one eighth. -/
theorem ofBits_eighth : Ideal.ofBits .f32 0x3E000000#32 = ((1 / 8 : ℝ) : EReal) := by
  simp [Ideal.ofBits, Ideal.ieee, -EReal.coe_mul]; norm_num

/-- The word of 8.0 denotes eight. -/
theorem ofBits_eight : Ideal.ofBits .f32 0x41000000#32 = ((8 : ℝ) : EReal) := by
  simp [Ideal.ofBits, Ideal.ieee, -EReal.coe_mul]; norm_num

/-- The word of 30.0 denotes thirty. -/
theorem ofBits_thirty : Ideal.ofBits .f32 0x41F00000#32 = ((30 : ℝ) : EReal) := by
  simp [Ideal.ofBits, Ideal.ieee, -EReal.coe_mul]; norm_num

end Cert.Consts

end
-- ==== Proof.HeadValue.lean ====
/-
  One attention head read at an entry, every float an extended real. The scores product at (s, t) is the sum over
  the 64 lanes of query row s times key row t; scaled by one eighth, shifted by the mask entry at t, capped through
  the hyperbolic tangent with thirtieth and thirty, and rectified, it is the specification's one-row score. The
  context product at (s, d) is the sum over the 2048 key positions of the scores row, each entry over the row's
  lane sum plus the small word, times lane d of the value rows: the specification's one-row context.
-/
import proofs.«116430_j893353197834_2_alg».proof.Proof.Head
import proofs.«116430_j893353197834_2_alg».proof.Proof.Spec
import proofs.«116430_j893353197834_2_alg».proof.Proof.Consts
import Idealize.ShloMosaic.Lib.ValueLayout
import Idealize.ShloMosaic.PureOps.Ideal.Laws
import Idealize.ShloMosaic.PureOps.IdealRules

noncomputable section

namespace Cert.KernelIdeal.Hand

open Idealize.ShloMosaic Idealize.ShloMosaic.ValueIdx Idealize.ShloMosaic.TcCoe Idealize.SL.Sem Cert.KernelIdeal Cert.KernelIdeal.Gen

namespace HeadValue

/-- The named thirtieth denotes the rational one thirtieth, by the certificate's table. -/
theorem inv_thirty : Named.named (F := Ideal) Cert.KernelIdeal.κ "inv_30" (φ := .f32) 0x3D088889#32 = ((1 / 30 : ℝ) : EReal) :=
  IdealRules.named_const.ideal_named_scalar _ _ _ _ rfl

/-- The dimension numbers of the scores product: both operands contract their lane axis. -/
abbrev dQK := dot_S512x64_S2048x64_S512x2048_1_1_0_0_n_n
/-- The dimension numbers of the context product: the key-position axis of the weights against that of the values. -/
abbrev dPV := dot_S512x2048_S2048x64_S512x64_1_0_0_1_n_n

/-- In the scores product the left operand's row is the output's row. -/
theorem qk_lhs0 (i : S512x2048.Idx) (q : dQK.contr.Idx) : (dQK.lhsIdx i q 0).val = (i 0).val := by
  unfold DotDims.lhsIdx
  rw [dif_neg (show ¬(0 : Fin S512x64.rank) ∈ dQK.lhsBatch by decide), dif_pos (show (0 : Fin S512x64.rank) ∈ dQK.lhsNonContracting by decide)]
  rfl
/-- The left operand's lane is the contraction coordinate. -/
theorem qk_lhs1 (i : S512x2048.Idx) (q : dQK.contr.Idx) : (dQK.lhsIdx i q 1).val = (q ⟨0, by decide⟩).val :=
  dQK.lhsIdx_val_of_single rfl i q
/-- The right operand's row is the output's column. -/
theorem qk_rhs0 (i : S512x2048.Idx) (q : dQK.contr.Idx) : (dQK.rhsIdx i q 0).val = (i 1).val := by
  unfold DotDims.rhsIdx
  rw [dif_neg (show ¬(0 : Fin S2048x64.rank) ∈ dQK.rhsBatch by decide), dif_pos (show (0 : Fin S2048x64.rank) ∈ dQK.rhsNonContracting by decide)]
  rfl
/-- The right operand's lane is the contraction coordinate. -/
theorem qk_rhs1 (i : S512x2048.Idx) (q : dQK.contr.Idx) : (dQK.rhsIdx i q 1).val = (q ⟨0, by decide⟩).val :=
  dQK.rhsIdx_val_of_single rfl i q

/-- Query rows against key rows: entry (s, t) is the sum over the 64 lanes of the products. -/
theorem qk_apply (qh : FVec Ideal S512x64 .bf16) (kh : FVec Ideal S2048x64 .bf16) (s : Fin 512) (t : Fin 2048) :
    matmul dot_S512x64_S2048x64_S512x2048_1_1_0_0_n_n none qh kh (constant (F := Ideal) S512x2048 .f32 0x00000000#32) (ix2 s t)
      = ∑ e : Fin 64, qh (ix2 s e) * kh (ix2 t e) := by
  simp only [matmul]
  rw [Ideal.matmul_constant_zero_apply, ← Equiv.sum_comp (contrEquiv1 dQK 64 rfl rfl).symm]
  refine Finset.sum_congr rfl fun k _ => ?_
  have hk := contrEquiv1_symm_val dQK 64 rfl rfl k
  have el : dQK.lhsIdx (ix2 s t) ((contrEquiv1 dQK 64 rfl rfl).symm k) = ix2 s k := funext fun a => Fin.ext (by
    match a with
    | ⟨0, _⟩ => exact qk_lhs0 _ _
    | ⟨1, _⟩ => exact (qk_lhs1 _ _).trans hk)
  have er : dQK.rhsIdx (ix2 s t) ((contrEquiv1 dQK 64 rfl rfl).symm k) = ix2 t k := funext fun a => Fin.ext (by
    match a with
    | ⟨0, _⟩ => exact qk_rhs0 _ _
    | ⟨1, _⟩ => exact (qk_rhs1 _ _).trans hk)
  rw [el, er]

/-- In the context product the left operand's row is the output's row. -/
theorem pv_lhs0 (i : S512x64.Idx) (q : dPV.contr.Idx) : (dPV.lhsIdx i q 0).val = (i 0).val := by
  unfold DotDims.lhsIdx
  rw [dif_neg (show ¬(0 : Fin S512x2048.rank) ∈ dPV.lhsBatch by decide), dif_pos (show (0 : Fin S512x2048.rank) ∈ dPV.lhsNonContracting by decide)]
  rfl
/-- The left operand's column is the contraction coordinate. -/
theorem pv_lhs1 (i : S512x64.Idx) (q : dPV.contr.Idx) : (dPV.lhsIdx i q 1).val = (q ⟨0, by decide⟩).val :=
  dPV.lhsIdx_val_of_single rfl i q
/-- The right operand's row is the contraction coordinate. -/
theorem pv_rhs0 (i : S512x64.Idx) (q : dPV.contr.Idx) : (dPV.rhsIdx i q 0).val = (q ⟨0, by decide⟩).val :=
  dPV.rhsIdx_val_of_single rfl i q
/-- The right operand's lane is the output's lane. -/
theorem pv_rhs1 (i : S512x64.Idx) (q : dPV.contr.Idx) : (dPV.rhsIdx i q 1).val = (i 1).val := by
  unfold DotDims.rhsIdx
  rw [dif_neg (show ¬(1 : Fin S2048x64.rank) ∈ dPV.rhsBatch by decide), dif_pos (show (1 : Fin S2048x64.rank) ∈ dPV.rhsNonContracting by decide)]
  rfl

/-- Weight rows against value columns: entry (s, d) is the sum over the 2048 key positions of the products. -/
theorem pv_apply (p : FVec Ideal S512x2048 .bf16) (vh : FVec Ideal S2048x64 .bf16) (s : Fin 512) (d : Fin 64) :
    matmul dot_S512x2048_S2048x64_S512x64_1_0_0_1_n_n none p vh (constant (F := Ideal) S512x64 .f32 0x00000000#32) (ix2 s d)
      = ∑ t : Fin 2048, p (ix2 s t) * vh (ix2 t d) := by
  simp only [matmul]
  rw [Ideal.matmul_constant_zero_apply, ← Equiv.sum_comp (contrEquiv1 dPV 2048 rfl rfl).symm]
  refine Finset.sum_congr rfl fun k _ => ?_
  have hk := contrEquiv1_symm_val dPV 2048 rfl rfl k
  have el : dPV.lhsIdx (ix2 s d) ((contrEquiv1 dPV 2048 rfl rfl).symm k) = ix2 s k := funext fun a => Fin.ext (by
    match a with
    | ⟨0, _⟩ => exact pv_lhs0 _ _
    | ⟨1, _⟩ => exact (pv_lhs1 _ _).trans hk)
  have er : dPV.rhsIdx (ix2 s d) ((contrEquiv1 dPV 2048 rfl rfl).symm k) = ix2 k d := funext fun a => Fin.ext (by
    match a with
    | ⟨0, _⟩ => exact (pv_rhs0 _ _).trans hk
    | ⟨1, _⟩ => exact pv_rhs1 _ _)
  rw [el, er]

variable {α : Type}

/-- A 512 x 64 array laid out as 1 x 512 x 1 x 64 reads, at (0, s, 0, d), the operand at (s, d). -/
theorem shapeCast_out_apply (x : S512x64.Idx → α) (h : S512x64.ShapeCasts S1x512x1x64) (s : Fin 512) (d : Fin 64) :
    shapeCast S1x512x1x64 x h (ix4 (0 : Fin 1) s (0 : Fin 1) d) = x (ix2 s d) :=
  shapeCast_apply x h _ _ (by
    rw [Shape.rowMajor_val_four, Shape.rowMajor_val_two]
    show s.val * 64 + d.val = ((0 * 512 + s.val) * 1 + 0) * 64 + d.val
    omega)

/-- A length-512 vector laid out as a 512 x 1 column reads, at (s, 0), the operand at s. -/
theorem shapeCast_col_apply (x : S512.Idx → α) (h : S512.ShapeCasts S512x1) (s : Fin 512) (u : Fin 1) :
    shapeCast S512x1 x h (ix2 s u) = x (ix1 s) :=
  shapeCast_apply x h _ _ (by
    have hu : u.val = 0 := by omega
    rw [Shape.rowMajor_val_one, Shape.rowMajor_val_two]
    show s.val = s.val * 1 + u.val
    omega)

/-- A 512 x 1 column broadcast over 2048 lanes reads, at (s, t), the column at (s, 0). -/
theorem broadcastTo_col_apply (x : S512x1.Idx → α) (h : S512x1.Broadcasts S512x2048) (s : Fin 512) (t : Fin 2048) :
    broadcastTo S512x2048 x h (ix2 s t) = x (ix2 s (0 : Fin 1)) := by
  refine broadcastTo_apply x h (ix2 s t) (ix2 s (0 : Fin 1)) fun ax => ?_
  match ax with
  | ⟨0, _⟩ =>
    show s.val = if (512 : Nat) = 1 then 0 else s.val
    rw [if_neg (by decide)]
  | ⟨1, _⟩ => rfl

/-- The lane sum of a 512 x 2048 array at row s is the sum over the 2048 lanes of that row. -/
theorem rowSum_apply (r : FVec Ideal S512x2048 .f32) (h : S512x2048.Reduces [1] S512) (hφ : FKind.Formats .f32)
    (hacc : (0x00000000#32 : BitVec 32) = 0x00000000#32) (s : Fin 512) :
    multiReduction (F := Ideal) .add [1] S512 r 0x00000000#32 h hφ hacc (ix1 s) = ∑ u : Fin 2048, r (ix2 s u) := by
  refine (Ideal.multiReduction_add_single r 0x00000000#32 h hφ hacc (ix1 s)).trans ?_
  show ∑ u : Fin 2048, r (h.lift (ix1 s) u) = _
  refine Finset.sum_congr rfl fun u _ => congrArg r (funext fun a => Fin.ext ?_)
  match a with
  | ⟨0, _⟩ => rfl
  | ⟨1, _⟩ => rfl

end HeadValue

open HeadValue

/-- The rectified capped scores at an entry: the specification's score of the query row, the key row and the
    mask entry. -/
theorem headScores_apply (qh : FVec Ideal S512x64 .bf16) (kh : FVec Ideal S2048x64 .bf16) (mk : FVec Ideal S1x2048 .f32)
    (s : Fin 512) (t : Fin 2048) :
    headScores (F := Ideal) qh kh mk (ix2 s t)
      = Cert.Spec.score1 (fun e => qh (ix2 s e)) (fun e => kh (ix2 t e)) (mk (ix2 0 t)) := by
  unfold headScores Cert.Spec.score1
  show max (Ideal.tanh ((matmul dot_S512x64_S2048x64_S512x2048_1_1_0_0_n_n none qh kh (constant (F := Ideal) S512x2048 .f32 0x00000000#32) (ix2 s t)
      * Ideal.ofBits .f32 0x3E000000#32
      + broadcastTo S512x2048 mk broadcasts_S1x2048_S512x2048 (ix2 s t))
      * Named.named (F := Ideal) Cert.KernelIdeal.κ "inv_30" (φ := .f32) 0x3D088889#32)
      * Ideal.ofBits .f32 0x41F00000#32) (Ideal.ofBits .f32 0x00000000#32) = _
  rw [qk_apply, broadcastTo_1b_ab_apply, Cert.Consts.ofBits_eighth, Cert.Consts.ofBits_thirty, inv_thirty, Ideal.ofBits_zero_f32]

/-- The head's output piece at an entry: the scores row, each entry over the row's sum plus the small word,
    against lane d of the value rows. -/
theorem headOut_apply (r : FVec Ideal S512x2048 .f32) (vh : FVec Ideal S2048x64 .bf16) (s : Fin 512) (d : Fin 64) :
    headOut (F := Ideal) r vh (ix4 0 s 0 d) = Cert.Spec.ctx1 (fun t => r (ix2 s t)) (fun t => vh (ix2 t d)) := by
  unfold headOut Cert.Spec.ctx1
  refine (shapeCast_out_apply _ _ s d).trans ?_
  refine (pv_apply _ vh s d).trans ?_
  refine Finset.sum_congr rfl fun t _ => ?_
  show Ideal.div (r (ix2 s t))
      (broadcastTo S512x2048
        (addf
          (shapeCast S512x1 (multiReduction (F := Ideal) .add [1] S512 r 0x00000000#32 reduces_S512x2048_S512 (.inl rfl) rfl) shapeCasts_S512_S512x1)
          (broadcast S512x1 (Scalar.ofBits (F := Ideal) .f32 0x358637BD#32)))
        broadcasts_S512x1_S512x2048 (ix2 s t)) * vh (ix2 t d) = _
  rw [broadcastTo_col_apply]
  show Ideal.div (r (ix2 s t))
      (shapeCast S512x1 (multiReduction (F := Ideal) .add [1] S512 r 0x00000000#32 reduces_S512x2048_S512 (.inl rfl) rfl) shapeCasts_S512_S512x1 (ix2 s (0 : Fin 1))
        + Ideal.ofBits .f32 0x358637BD#32) * vh (ix2 t d) = _
  rw [shapeCast_col_apply, rowSum_apply]
  rfl

/-- One head read at an entry: at query row s and lane d it is the normalised row of that query's scores against
    lane d of the value rows. -/
theorem headOf_apply (qh : FVec Ideal S512x64 .bf16) (kh vh : FVec Ideal S2048x64 .bf16) (mk : FVec Ideal S1x2048 .f32)
    (s : Fin 512) (d : Fin 64) :
    headOf (F := Ideal) qh kh vh mk (ix4 0 s 0 d) =
      Cert.Spec.ctx1 (fun t => Cert.Spec.score1 (fun e => qh (ix2 s e)) (fun e => kh (ix2 t e)) (mk (ix2 0 t)))
        (fun t => vh (ix2 t d)) := by
  unfold headOf
  rw [headOut_apply]
  exact congrArg (fun sc => Cert.Spec.ctx1 sc (fun t => vh (ix2 t d))) (funext fun t => headScores_apply qh kh mk s t)

end Cert.KernelIdeal.Hand

end
-- ==== Proof.AttnRegionSlices.lean ====
/-
  Reading one head's operands at an entry. The query block [512, 16, 64] cut to head h and laid out [512, 64]
  reads, at (s, e), the block at (s, h, e); likewise the key and value slabs [2048, 16, 64]. The unit-axis casts of
  the loaded windows read (0, ·) of the window. Together with the head's value at an entry this gives the head's
  output piece at (0, s, 0, d) as a function of the four loaded windows, for any head offset.
-/
import Idealize.ShloMosaic.Lib.ValueLayout
import proofs.«116430_j893353197834_2_alg».proof.Proof.Gen.KernelIdeal.Frame
import proofs.«116430_j893353197834_2_alg».proof.Proof.HeadValue

noncomputable section

namespace Cert.KernelIdeal.Hand

open Idealize.ShloMosaic Idealize.ShloMosaic.ValueIdx Idealize.ShloMosaic.TcCoe Idealize.SL.Sem Cert.KernelIdeal Cert.KernelIdeal.Gen

/-- An [a, 1, b] array laid out [a, b] reads, at (i, j), the operand at (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An [n, 16, 64] array cut to the one head at offset o and laid out [n, 64] reads, at (s, e), the array at
    (s, h, e), h the head whose number is o. -/
theorem headSlice_apply {α : Type} {n : ℕ} (o : ℕ) (X : (⟨3, ![n, 16, 64]⟩ : Shape).Idx → α)
    (hs : (⟨3, ![n, 16, 64]⟩ : Shape).Slices ![0, o, 0] ⟨3, ![n, 1, 64]⟩)
    (hc : (⟨3, ![n, 1, 64]⟩ : Shape).ShapeCasts ⟨2, ![n, 64]⟩) (h : Fin 16) (ho : h.val = o) (s : Fin n) (e : Fin 64) :
    shapeCast ⟨2, ![n, 64]⟩ (extractStridedSlice ⟨3, ![n, 1, 64]⟩ ![0, o, 0] X hs) hc (ix2 s e) = X (ix3 s h e) := by
  rw [shapeCast_a1b_ab_apply]
  exact slice3_axis1_apply o X hs s 0 e h (by rw [ho]; rfl)

/-- One head's output piece at (0, s, 0, d), from the three rank-3 operands and the mask row: the context entry of
    head h at query row s and lane d. -/
theorem headOf_slices_apply (o : ℕ) (q3 : FVec Ideal S512x16x64 .bf16) (k3 v3 : FVec Ideal S2048x16x64 .bf16)
    (mk : FVec Ideal S1x2048 .f32) (hq : S512x16x64.Slices ![0, o, 0] S512x1x64)
    (hk : S2048x16x64.Slices ![0, o, 0] S2048x1x64) (h : Fin 16) (ho : h.val = o) (s : Fin 512) (d : Fin 64) :
    headOf (F := Ideal)
        (shapeCast S512x64 (extractStridedSlice S512x1x64 ![0, o, 0] q3 hq) shapeCasts_S512x1x64_S512x64)
        (shapeCast S2048x64 (extractStridedSlice S2048x1x64 ![0, o, 0] k3 hk) shapeCasts_S2048x1x64_S2048x64)
        (shapeCast S2048x64 (extractStridedSlice S2048x1x64 ![0, o, 0] v3 hk) shapeCasts_S2048x1x64_S2048x64)
        mk (ix4 0 s 0 d)
      = Cert.Spec.ctx1 (fun t => Cert.Spec.score1 (fun e => q3 (ix3 s h e)) (fun e => k3 (ix3 t h e)) (mk (ix2 0 t)))
          (fun t => v3 (ix3 t h d)) := by
  rw [headOf_apply]
  simp only [headSlice_apply o _ _ _ h ho]

/-- The head at offset o of the body, as the one head term at the four loaded windows: the windows' unit axes cast
    away, each operand cut to the head and laid out as a matrix. -/
def headAt {F : FTy → Type} [FloatOps F] [Named F] (o : ℕ) (hq : S512x16x64.Slices ![0, o, 0] S512x1x64)
    (hk : S2048x16x64.Slices ![0, o, 0] S2048x1x64) (x0 : Vec F S1x512x16x64 .bf16) (x1 x2 : Vec F S1x2048x16x64 .bf16)
    (x3 : Vec F S1x1x2048 .f32) : FVec F S1x512x1x64 .f32 :=
  headOf
    (shapeCast S512x64 (extractStridedSlice S512x1x64 ![0, o, 0] (k1_pay2 (View.ld x0 r1_0)) hq) shapeCasts_S512x1x64_S512x64)
    (shapeCast S2048x64 (extractStridedSlice S2048x1x64 ![0, o, 0] (k1_pay3 (View.ld x1 r1_1)) hk) shapeCasts_S2048x1x64_S2048x64)
    (shapeCast S2048x64 (extractStridedSlice S2048x1x64 ![0, o, 0] (k1_pay4 (View.ld x2 r1_1)) hk) shapeCasts_S2048x1x64_S2048x64)
    (k1_pay5 (View.ld x3 r1_2))

/-- The head at offset o read at (0, s, 0, d), from the four loaded windows: the unit-axis casts read (0, ·) of each
    window. -/
theorem headAt_apply (o : ℕ) (hq : S512x16x64.Slices ![0, o, 0] S512x1x64)
    (hk : S2048x16x64.Slices ![0, o, 0] S2048x1x64) (x0 : Vec Ideal S1x512x16x64 .bf16) (x1 x2 : Vec Ideal S1x2048x16x64 .bf16)
    (x3 : Vec Ideal S1x1x2048 .f32) (h : Fin 16) (ho : h.val = o) (s : Fin 512) (d : Fin 64) :
    headAt (F := Ideal) o hq hk x0 x1 x2 x3 (ix4 0 s 0 d)
      = Cert.Spec.ctx1 (fun t => Cert.Spec.score1 (fun e => x0 (ix4 0 s h e)) (fun e => x1 (ix4 0 t h e)) (x3 (ix3 0 0 t)))
          (fun t => x2 (ix4 0 t h d)) := by
  unfold headAt
  rw [headOf_slices_apply o _ _ _ _ hq hk h ho]
  have z4 : (![0, 0, 0, 0] : Fin 4 → Nat) = fun _ => 0 := funext fun a => by fin_cases a <;> rfl
  have z3 : (![0, 0, 0] : Fin 3 → Nat) = fun _ => 0 := funext fun a => by fin_cases a <;> rfl
  rw [View.ld_unit_zero (S := S1x512x16x64) z4, View.ld_unit_zero (S := S1x2048x16x64) z4,
    View.ld_unit_zero (S := S1x2048x16x64) z4, View.ld_unit_zero (S := S1x1x2048) z3]
  unfold k1_pay2 k1_pay3 k1_pay4 k1_pay5
  simp only [shapeCast_1abc_abc_apply, shapeCast_1ab_ab_apply]

end Cert.KernelIdeal.Hand

end
-- ==== Proof.AttnRegionPieces.lean ====
/-
  Each of the sixteen stores of the attention body stores the one head term at that head's offset: the body's cut
  into named pieces differs from head to head, the term they compose to does not. Sixteen equations, each by
  unfolding the named pieces.
-/
import proofs.«116430_j893353197834_2_alg».proof.Proof.AttnRegionSlices

noncomputable section

namespace Cert.KernelIdeal.Hand

open Idealize.ShloMosaic Idealize.ShloMosaic.TcCoe Idealize.SL.Sem Cert.KernelIdeal Cert.KernelIdeal.Gen

variable {F : FTy → Type} [FloatOps F] [Named F]
variable (x0 : Vec F S1x512x16x64 .bf16) (x1 x2 : Vec F S1x2048x16x64 .bf16) (x3 : Vec F S1x1x2048 .f32)

/-- What the first head's store holds is the head term at offset 0. -/
theorem stored0 : k1_pay7 (k1_pay6 (View.ld x0 r1_0) (View.ld x1 r1_1) (View.ld x2 r1_1) (View.ld x3 r1_2))
    = headAt 0 slices_S512x16x64_o0_0_0_S512x1x64 slices_S2048x16x64_o0_0_0_S2048x1x64 x0 x1 x2 x3 := rfl

/-- What the second head's store holds is the head term at offset 1. -/
theorem stored1 : k1_pay8 (k1_pay2 (View.ld x0 r1_0)) (k1_pay3 (View.ld x1 r1_1)) (k1_pay4 (View.ld x2 r1_1)) (k1_pay5 (View.ld x3 r1_2))
    = headAt 1 slices_S512x16x64_o0_1_0_S512x1x64 slices_S2048x16x64_o0_1_0_S2048x1x64 x0 x1 x2 x3 := rfl

/-- What the third head's store holds is the head term at offset 2. -/
theorem stored2 : k1_pay11 (k1_pay5 (View.ld x3 r1_2)) (k1_pay9 (k1_pay4 (View.ld x2 r1_1))) (k1_pay10 (k1_pay2 (View.ld x0 r1_0)) (k1_pay3 (View.ld x1 r1_1)))
    = headAt 2 slices_S512x16x64_o0_2_0_S512x1x64 slices_S2048x16x64_o0_2_0_S2048x1x64 x0 x1 x2 x3 := rfl

/-- What the fourth head's store holds is the head term at offset 3. -/
theorem stored3 : k1_pay15 (k1_pay12 (k1_pay4 (View.ld x2 r1_1))) (k1_pay13 (k1_pay2 (View.ld x0 r1_0)) (k1_pay3 (View.ld x1 r1_1)) (k1_pay5 (View.ld x3 r1_2))) (k1_pay14 (k1_pay2 (View.ld x0 r1_0)) (k1_pay3 (View.ld x1 r1_1)) (k1_pay5 (View.ld x3 r1_2)))
    = headAt 3 slices_S512x16x64_o0_3_0_S512x1x64 slices_S2048x16x64_o0_3_0_S2048x1x64 x0 x1 x2 x3 := rfl

/-- What the fifth head's store holds is the head term at offset 4. -/
theorem stored4 : k1_pay16 (k1_pay2 (View.ld x0 r1_0)) (k1_pay3 (View.ld x1 r1_1)) (k1_pay4 (View.ld x2 r1_1)) (k1_pay5 (View.ld x3 r1_2))
    = headAt 4 slices_S512x16x64_o0_4_0_S512x1x64 slices_S2048x16x64_o0_4_0_S2048x1x64 x0 x1 x2 x3 := rfl

/-- What the sixth head's store holds is the head term at offset 5. -/
theorem stored5 : k1_pay20 (k1_pay5 (View.ld x3 r1_2)) (k1_pay17 (k1_pay2 (View.ld x0 r1_0))) (k1_pay18 (k1_pay3 (View.ld x1 r1_1))) (k1_pay19 (k1_pay4 (View.ld x2 r1_1)))
    = headAt 5 slices_S512x16x64_o0_5_0_S512x1x64 slices_S2048x16x64_o0_5_0_S2048x1x64 x0 x1 x2 x3 := rfl

/-- What the seventh head's store holds is the head term at offset 6. -/
theorem stored6 : k1_pay23 (k1_pay21 (k1_pay4 (View.ld x2 r1_1))) (k1_pay22 (k1_pay2 (View.ld x0 r1_0)) (k1_pay3 (View.ld x1 r1_1)) (k1_pay5 (View.ld x3 r1_2)))
    = headAt 6 slices_S512x16x64_o0_6_0_S512x1x64 slices_S2048x16x64_o0_6_0_S2048x1x64 x0 x1 x2 x3 := rfl

/-- What the eighth head's store holds is the head term at offset 7. -/
theorem stored7 : k1_pay24 (k1_pay2 (View.ld x0 r1_0)) (k1_pay3 (View.ld x1 r1_1)) (k1_pay4 (View.ld x2 r1_1)) (k1_pay5 (View.ld x3 r1_2))
    = headAt 7 slices_S512x16x64_o0_7_0_S512x1x64 slices_S2048x16x64_o0_7_0_S2048x1x64 x0 x1 x2 x3 := rfl

/-- What the ninth head's store holds is the head term at offset 8. -/
theorem stored8 : k1_pay25 (k1_pay2 (View.ld x0 r1_0)) (k1_pay3 (View.ld x1 r1_1)) (k1_pay4 (View.ld x2 r1_1)) (k1_pay5 (View.ld x3 r1_2))
    = headAt 8 slices_S512x16x64_o0_8_0_S512x1x64 slices_S2048x16x64_o0_8_0_S2048x1x64 x0 x1 x2 x3 := rfl

/-- What the tenth head's store holds is the head term at offset 9. -/
theorem stored9 : k1_pay28 (k1_pay26 (k1_pay4 (View.ld x2 r1_1))) (k1_pay27 (k1_pay2 (View.ld x0 r1_0)) (k1_pay3 (View.ld x1 r1_1)) (k1_pay5 (View.ld x3 r1_2)))
    = headAt 9 slices_S512x16x64_o0_9_0_S512x1x64 slices_S2048x16x64_o0_9_0_S2048x1x64 x0 x1 x2 x3 := rfl

/-- What the eleventh head's store holds is the head term at offset 10. -/
theorem stored10 : k1_pay30 (k1_pay29 (k1_pay2 (View.ld x0 r1_0)) (k1_pay3 (View.ld x1 r1_1)) (k1_pay4 (View.ld x2 r1_1)) (k1_pay5 (View.ld x3 r1_2)))
    = headAt 10 slices_S512x16x64_o0_10_0_S512x1x64 slices_S2048x16x64_o0_10_0_S2048x1x64 x0 x1 x2 x3 := rfl

/-- What the twelfth head's store holds is the head term at offset 11. -/
theorem stored11 : k1_pay31 (k1_pay2 (View.ld x0 r1_0)) (k1_pay3 (View.ld x1 r1_1)) (k1_pay4 (View.ld x2 r1_1)) (k1_pay5 (View.ld x3 r1_2))
    = headAt 11 slices_S512x16x64_o0_11_0_S512x1x64 slices_S2048x16x64_o0_11_0_S2048x1x64 x0 x1 x2 x3 := rfl

/-- What the thirteenth head's store holds is the head term at offset 12. -/
theorem stored12 : k1_pay34 (k1_pay5 (View.ld x3 r1_2)) (k1_pay32 (k1_pay4 (View.ld x2 r1_1))) (k1_pay33 (k1_pay2 (View.ld x0 r1_0)) (k1_pay3 (View.ld x1 r1_1)))
    = headAt 12 slices_S512x16x64_o0_12_0_S512x1x64 slices_S2048x16x64_o0_12_0_S2048x1x64 x0 x1 x2 x3 := rfl

/-- What the fourteenth head's store holds is the head term at offset 13. -/
theorem stored13 : k1_pay38 (k1_pay35 (k1_pay4 (View.ld x2 r1_1))) (k1_pay36 (k1_pay2 (View.ld x0 r1_0)) (k1_pay3 (View.ld x1 r1_1)) (k1_pay5 (View.ld x3 r1_2))) (k1_pay37 (k1_pay2 (View.ld x0 r1_0)) (k1_pay3 (View.ld x1 r1_1)) (k1_pay5 (View.ld x3 r1_2)))
    = headAt 13 slices_S512x16x64_o0_13_0_S512x1x64 slices_S2048x16x64_o0_13_0_S2048x1x64 x0 x1 x2 x3 := rfl

/-- What the fifteenth head's store holds is the head term at offset 14. -/
theorem stored14 : k1_pay39 (k1_pay2 (View.ld x0 r1_0)) (k1_pay3 (View.ld x1 r1_1)) (k1_pay4 (View.ld x2 r1_1)) (k1_pay5 (View.ld x3 r1_2))
    = headAt 14 slices_S512x16x64_o0_14_0_S512x1x64 slices_S2048x16x64_o0_14_0_S2048x1x64 x0 x1 x2 x3 := rfl

/-- What the sixteenth head's store holds is the head term at offset 15. -/
theorem stored15 : k1_pay1 (k1_pay5 (View.ld x3 r1_2)) (k1_pay40 (k1_pay2 (View.ld x0 r1_0))) (k1_pay41 (k1_pay3 (View.ld x1 r1_1))) (k1_pay42 (k1_pay4 (View.ld x2 r1_1)))
    = headAt 15 slices_S512x16x64_o0_15_0_S512x1x64 slices_S2048x16x64_o0_15_0_S2048x1x64 x0 x1 x2 x3 := rfl

end Cert.KernelIdeal.Hand

end
-- ==== Proof.AttnRegionBlock.lean ====
/-
  The attention body's output block as ONE function of its four loaded windows: entry (0, s, h, d) of the block is
  the context entry of head h at query row s and lane d. Each of the sixteen stores holds that function on its
  rectangle (head h's rectangle is the slab at coordinate h of the head axis), and the sixteen rectangles cover the
  block, so the block reads the function everywhere.
-/
import proofs.«116430_j893353197834_2_alg».proof.Proof.AttnRegionPieces

noncomputable section

namespace Cert.KernelIdeal.Hand

open Idealize.ShloMosaic Idealize.ShloMosaic.ValueIdx Idealize.ShloMosaic.TcCoe Idealize.SL.Sem Cert.KernelIdeal Cert.KernelIdeal.Gen

variable (x0 : Vec Ideal S1x512x16x64 .bf16) (x1 x2 : Vec Ideal S1x2048x16x64 .bf16) (x3 : Vec Ideal S1x1x2048 .f32)

/-- The block's entry at query row s, head h, lane d: the normalised row of that query's scores in head h against
    lane d of the head's values. -/
def blockEntry (s : Fin 512) (h : Fin 16) (d : Fin 64) : EReal :=
  Cert.Spec.ctx1 (fun t => Cert.Spec.score1 (fun e => x0 (ix4 0 s h e)) (fun e => x1 (ix4 0 t h e)) (x3 (ix3 0 0 t)))
    (fun t => x2 (ix4 0 t h d))

/-- The block as a function of its index. -/
def blockFn : Vec Ideal S1x512x16x64 .f32 := fun y => blockEntry x0 x1 x2 x3 (y 1) (y 2) (y 3)

/-- The head term at offset o is the block function on the slab of the head whose number is o. -/
theorem headAt_eq_blockFn (o : ℕ) (h : Fin 16) (ho : h.val = o) (hq : S512x16x64.Slices ![0, o, 0] S512x1x64)
    (hk : S2048x16x64.Slices ![0, o, 0] S2048x1x64)
    (inb : ∀ a, (![0, 0, o, 0] : Fin 4 → Nat) a + S1x512x1x64.size a ≤ S1x512x16x64.size a) (x : S1x512x1x64.Idx) :
    headAt (F := Ideal) o hq hk x0 x1 x2 x3 x
      = blockFn x0 x1 x2 x3 ((Rect.unit (s := S1x512x16x64) ![0, 0, o, 0] S1x512x1x64.size inb).emb x) := by
  obtain ⟨u, s, z, d, rfl⟩ : ∃ (u : Fin 1) (s : Fin 512) (z : Fin 1) (d : Fin 64), x = ix4 u s z d :=
    ⟨x 0, x 1, x 2, x 3, eq_ix4 x⟩
  obtain rfl : u = 0 := Subsingleton.elim _ _
  obtain rfl : z = 0 := Subsingleton.elim _ _
  rw [headAt_apply o hq hk x0 x1 x2 x3 h ho s d]
  have e1 : ((Rect.unit (s := S1x512x16x64) ![0, 0, o, 0] S1x512x1x64.size inb).emb (ix4 (0 : Fin 1) s (0 : Fin 1) d) 1 : Fin 512) = s :=
    Fin.ext (by show 0 + 1 * s.val = s.val; omega)
  have e2 : ((Rect.unit (s := S1x512x16x64) ![0, 0, o, 0] S1x512x1x64.size inb).emb (ix4 (0 : Fin 1) s (0 : Fin 1) d) 2 : Fin 16) = h :=
    Fin.ext (by show o + 1 * 0 = h.val; omega)
  have e3 : ((Rect.unit (s := S1x512x16x64) ![0, 0, o, 0] S1x512x1x64.size inb).emb (ix4 (0 : Fin 1) s (0 : Fin 1) d) 3 : Fin 64) = d :=
    Fin.ext (by show 0 + 1 * d.val = d.val; omega)
  show _ = blockEntry x0 x1 x2 x3 _ _ _
  rw [e1, e2, e3]
  rfl

/-- THE BLOCK: what the body leaves in the output window's buffer is the block function of the four loaded windows. -/
theorem out1_4_eq : out1_4 x0 x1 x2 x3 = blockFn x0 x1 x2 x3 := by
  funext y
  unfold out1_4
  refine View.canon_apply_of_pieces (blockFn x0 x1 x2 x3) _ ?_ y (cover1_4 _ _ _ _ _ _ _ _ _ _ _ _ _ _ _ _ y)
  refine List.forall_mem_cons.2 ⟨fun x => (congrFun (stored15 x0 x1 x2 x3) x).trans
    (headAt_eq_blockFn x0 x1 x2 x3 15 15 rfl _ _ inb_S1x512x16x64_S1x512x1x64_0_0_15_0 x), ?_⟩
  refine List.forall_mem_cons.2 ⟨fun x => (congrFun (stored14 x0 x1 x2 x3) x).trans
    (headAt_eq_blockFn x0 x1 x2 x3 14 14 rfl _ _ inb_S1x512x16x64_S1x512x1x64_0_0_14_0 x), ?_⟩
  refine List.forall_mem_cons.2 ⟨fun x => (congrFun (stored13 x0 x1 x2 x3) x).trans
    (headAt_eq_blockFn x0 x1 x2 x3 13 13 rfl _ _ inb_S1x512x16x64_S1x512x1x64_0_0_13_0 x), ?_⟩
  refine List.forall_mem_cons.2 ⟨fun x => (congrFun (stored12 x0 x1 x2 x3) x).trans
    (headAt_eq_blockFn x0 x1 x2 x3 12 12 rfl _ _ inb_S1x512x16x64_S1x512x1x64_0_0_12_0 x), ?_⟩
  refine List.forall_mem_cons.2 ⟨fun x => (congrFun (stored11 x0 x1 x2 x3) x).trans
    (headAt_eq_blockFn x0 x1 x2 x3 11 11 rfl _ _ inb_S1x512x16x64_S1x512x1x64_0_0_11_0 x), ?_⟩
  refine List.forall_mem_cons.2 ⟨fun x => (congrFun (stored10 x0 x1 x2 x3) x).trans
    (headAt_eq_blockFn x0 x1 x2 x3 10 10 rfl _ _ inb_S1x512x16x64_S1x512x1x64_0_0_10_0 x), ?_⟩
  refine List.forall_mem_cons.2 ⟨fun x => (congrFun (stored9 x0 x1 x2 x3) x).trans
    (headAt_eq_blockFn x0 x1 x2 x3 9 9 rfl _ _ inb_S1x512x16x64_S1x512x1x64_0_0_9_0 x), ?_⟩
  refine List.forall_mem_cons.2 ⟨fun x => (congrFun (stored8 x0 x1 x2 x3) x).trans
    (headAt_eq_blockFn x0 x1 x2 x3 8 8 rfl _ _ inb_S1x512x16x64_S1x512x1x64_0_0_8_0 x), ?_⟩
  refine List.forall_mem_cons.2 ⟨fun x => (congrFun (stored7 x0 x1 x2 x3) x).trans
    (headAt_eq_blockFn x0 x1 x2 x3 7 7 rfl _ _ inb_S1x512x16x64_S1x512x1x64_0_0_7_0 x), ?_⟩
  refine List.forall_mem_cons.2 ⟨fun x => (congrFun (stored6 x0 x1 x2 x3) x).trans
    (headAt_eq_blockFn x0 x1 x2 x3 6 6 rfl _ _ inb_S1x512x16x64_S1x512x1x64_0_0_6_0 x), ?_⟩
  refine List.forall_mem_cons.2 ⟨fun x => (congrFun (stored5 x0 x1 x2 x3) x).trans
    (headAt_eq_blockFn x0 x1 x2 x3 5 5 rfl _ _ inb_S1x512x16x64_S1x512x1x64_0_0_5_0 x), ?_⟩
  refine List.forall_mem_cons.2 ⟨fun x => (congrFun (stored4 x0 x1 x2 x3) x).trans
    (headAt_eq_blockFn x0 x1 x2 x3 4 4 rfl _ _ inb_S1x512x16x64_S1x512x1x64_0_0_4_0 x), ?_⟩
  refine List.forall_mem_cons.2 ⟨fun x => (congrFun (stored3 x0 x1 x2 x3) x).trans
    (headAt_eq_blockFn x0 x1 x2 x3 3 3 rfl _ _ inb_S1x512x16x64_S1x512x1x64_0_0_3_0 x), ?_⟩
  refine List.forall_mem_cons.2 ⟨fun x => (congrFun (stored2 x0 x1 x2 x3) x).trans
    (headAt_eq_blockFn x0 x1 x2 x3 2 2 rfl _ _ inb_S1x512x16x64_S1x512x1x64_0_0_2_0 x), ?_⟩
  refine List.forall_mem_cons.2 ⟨fun x => (congrFun (stored1 x0 x1 x2 x3) x).trans
    (headAt_eq_blockFn x0 x1 x2 x3 1 1 rfl _ _ inb_S1x512x16x64_S1x512x1x64_0_0_1_0 x), ?_⟩
  refine List.forall_mem_cons.2 ⟨fun x => (congrFun (stored0 x0 x1 x2 x3) x).trans
    (headAt_eq_blockFn x0 x1 x2 x3 0 0 rfl _ _ inb_S1x512x16x64_S1x512x1x64_0_0_0_0 x), ?_⟩
  exact fun _ hp => absurd hp List.not_mem_nil

end Cert.KernelIdeal.Hand

end
-- ==== Proof.AttnRegion.lean ====
/-
  From the attention call's blocks to its output array. At grid point (b, qi) the query window is rows
  512 qi … 512 qi + 511 of batch b, the key, value and mask windows are all of batch b, and the output window is
  rows 512 qi … 512 qi + 511 of batch b. So the block the body leaves there, read through the output window, is the
  whole-array context function read through the same rectangle; the sixteen output blocks tile the array — the
  point covering (b, s, ·, ·) is (b, s / 512) — and the array ends holding the context function.
-/
import Idealize.ShloMosaic.Lib.ValueIdx
import proofs.«116430_j893353197834_2_alg».proof.Proof.Gen.KernelIdeal.Frame
import proofs.«116430_j893353197834_2_alg».proof.Proof.HeadValue
import proofs.«116430_j893353197834_2_alg».proof.Proof.AttnRegionBlock

noncomputable section

namespace Cert.KernelIdeal.Hand

open Idealize.ShloMosaic Idealize.ShloMosaic.ValueIdx Idealize.ShloMosaic.TcCoe Idealize.SL.Sem Cert.KernelIdeal Cert.KernelIdeal.Gen

/-- The context function of four arrays: entry (b, s, h, d) is the context entry of head h at position s, lane d. -/
def attnOf (A8 A9 A10 : S4x2048x16x64.Idx → EReal) (A11 : S4x1x2048.Idx → EReal) : S4x2048x16x64.Idx → EReal :=
  fun j => Cert.Spec.ctx (fun b s h d => A8 (ix4 b s h d)) (fun b s h d => A9 (ix4 b s h d))
    (fun b s h d => A10 (ix4 b s h d)) (fun b t => A11 (ix3 b 0 t)) (j 0) (j 2) (j 1) (j 3)

/-- A block entry is a context entry of the arrays, when the four windows read the arrays' batch b — the query
    window at row S of the array for its row s — along head h. -/
theorem blockEntry_eq_ctx (A8 A9 A10 : S4x2048x16x64.Idx → EReal) (A11 : S4x1x2048.Idx → EReal)
    (x0 : Vec Ideal S1x512x16x64 .bf16) (x1 x2 : Vec Ideal S1x2048x16x64 .bf16) (x3 : Vec Ideal S1x1x2048 .f32)
    (b : Fin 4) (s : Fin 512) (S : Fin 2048) (h : Fin 16) (d : Fin 64)
    (h0 : ∀ e, x0 (ix4 0 s h e) = A8 (ix4 b S h e))
    (h1 : ∀ t e, x1 (ix4 0 t h e) = A9 (ix4 b t h e))
    (h2 : ∀ t, x2 (ix4 0 t h d) = A10 (ix4 b t h d))
    (h3 : ∀ t, x3 (ix3 0 0 t) = A11 (ix3 b 0 t)) :
    blockEntry x0 x1 x2 x3 s h d = attnOf A8 A9 A10 A11 (ix4 b S h d) := by
  show _ = Cert.Spec.ctx _ _ _ _ b h S d
  unfold blockEntry Cert.Spec.ctx Cert.Spec.score
  simp only [h0, h1, h2, h3]

/-- The windows' block indices at a point, decided over the sixteen points: the query and output windows share
    their batch and row-block indices, the key, value and mask windows share the batch index and sit at zero on every
    other axis, and the head and lane axes are never cut. -/
theorem index_facts : ∀ t : Fin cfg1.N,
    win1_0.index t (0 : Fin 4) = win1_4.index t (0 : Fin 4) ∧ win1_0.index t (1 : Fin 4) = win1_4.index t (1 : Fin 4)
    ∧ win1_0.index t (2 : Fin 4) = 0 ∧ win1_0.index t (3 : Fin 4) = 0
    ∧ win1_1.index t (0 : Fin 4) = win1_4.index t (0 : Fin 4) ∧ win1_1.index t (1 : Fin 4) = 0
    ∧ win1_1.index t (2 : Fin 4) = 0 ∧ win1_1.index t (3 : Fin 4) = 0
    ∧ win1_2.index t (0 : Fin 4) = win1_4.index t (0 : Fin 4) ∧ win1_2.index t (1 : Fin 4) = 0
    ∧ win1_2.index t (2 : Fin 4) = 0 ∧ win1_2.index t (3 : Fin 4) = 0
    ∧ win1_3.index t (0 : Fin 3) = win1_4.index t (0 : Fin 4) ∧ win1_3.index t (1 : Fin 3) = 0
    ∧ win1_3.index t (2 : Fin 3) = 0
    ∧ win1_4.index t (2 : Fin 4) = 0 ∧ win1_4.index t (3 : Fin 4) = 0
    ∧ win1_4.index t (0 : Fin 4) ≤ 3 ∧ win1_4.index t (1 : Fin 4) ≤ 3 :=
  (by decide +kernel : ∀ t : Fin grid1.N, _)

/-- Every (batch, row block) is some point's. -/
theorem point_of_block : ∀ (q0 : Fin 4) (q1 : Fin 4), ∃ t : Fin cfg1.N,
    win1_4.index t (0 : Fin 4) = q0.val ∧ win1_4.index t (1 : Fin 4) = q1.val :=
  (by decide +kernel : ∀ (q0 : Fin 4) (q1 : Fin 4), ∃ t : Fin grid1.N,
    win1_4.index t (0 : Fin 4) = q0.val ∧ win1_4.index t (1 : Fin 4) = q1.val)

section AtEntryContents

variable (V : (c : Dev nD) → (b : Ref sig .tc) → Buf (Elt Ideal) ((c : Thread nD τ).loc b))

/-- WHAT POINT t WRITES BACK is block t of the context function of the four arrays as the region finds them. -/
theorem flushed_eq (c : Dev nD) (t : Fin cfg1.N) :
    (dat1 (F := Ideal) V c).flushed 4 t
      = ((cfg1.win 4).blk t).view.read (Elt Ideal) (attnOf (V c main_v8) (V c main_v9) (V c main_v10) (V c main_v11)) := by
  show (cfg1.win 4).cut (grid1.coords t) ((dat1 V c).after 4 t) = _
  rw [after1_4, out1_4_eq (iblk1 V c 0 t) (iblk1 V c 1 t) (iblk1 V c 2 t) (iblk1 V c 3 t)]
  obtain ⟨q0, q1, q2, q3, k0, k1, k2, k3, v0, v1, v2, v3, m0, m1, m2, o2, o3, ob, oq⟩ := index_facts t
  have key : ∀ y : S1x512x16x64.Idx,
      blockFn (iblk1 V c 0 t) (iblk1 V c 1 t) (iblk1 V c 2 t) (iblk1 V c 3 t) y
        = attnOf (V c main_v8) (V c main_v9) (V c main_v10) (V c main_v11) (((cfg1.win 4).blk t).view.emb y) := by
    intro y
    obtain ⟨u, s, h, d, rfl⟩ : ∃ (u : Fin 1) (s : Fin 512) (h : Fin 16) (d : Fin 64), y = ix4 u s h d :=
      ⟨y 0, y 1, y 2, y 3, eq_ix4 y⟩
    have hu : u.val = 0 := by omega
    have ej : ((cfg1.win 4).blk t).view.emb (ix4 u s h d)
        = ix4 (⟨win1_4.index t (0 : Fin 4), by omega⟩ : Fin 4) (⟨win1_4.index t (1 : Fin 4) * 512 + s.val, by omega⟩ : Fin 2048) h d := by
      funext a; apply Fin.ext
      match a with
      | ⟨0, _⟩ => show win1_4.index t (0 : Fin 4) * 1 + 1 * u.val = win1_4.index t (0 : Fin 4); omega
      | ⟨1, _⟩ => show win1_4.index t (1 : Fin 4) * 512 + 1 * s.val = win1_4.index t (1 : Fin 4) * 512 + s.val; omega
      | ⟨2, _⟩ => show win1_4.index t (2 : Fin 4) * 16 + 1 * h.val = h.val; omega
      | ⟨3, _⟩ => show win1_4.index t (3 : Fin 4) * 64 + 1 * d.val = d.val; omega
    refine Eq.trans ?_ (congrArg (attnOf (V c main_v8) (V c main_v9) (V c main_v10) (V c main_v11)) ej.symm)
    refine blockEntry_eq_ctx (V c main_v8) (V c main_v9) (V c main_v10) (V c main_v11) _ _ _ _ _ s _ h d ?_ ?_ ?_ ?_
    · intro e
      show V c main_v8 (((cfg1.win 0).blk t).view.emb (ix4 0 s h e)) = V c main_v8 _
      refine congrArg (V c main_v8) (funext fun a => Fin.ext ?_)
      match a with
      | ⟨0, _⟩ => show win1_0.index t (0 : Fin 4) * 1 + 1 * 0 = win1_4.index t (0 : Fin 4); omega
      | ⟨1, _⟩ => show win1_0.index t (1 : Fin 4) * 512 + 1 * s.val = win1_4.index t (1 : Fin 4) * 512 + s.val; omega
      | ⟨2, _⟩ => show win1_0.index t (2 : Fin 4) * 16 + 1 * h.val = h.val; omega
      | ⟨3, _⟩ => show win1_0.index t (3 : Fin 4) * 64 + 1 * e.val = e.val; omega
    · intro p e
      show V c main_v9 (((cfg1.win 1).blk t).view.emb (ix4 0 p h e)) = V c main_v9 _
      refine congrArg (V c main_v9) (funext fun a => Fin.ext ?_)
      match a with
      | ⟨0, _⟩ => show win1_1.index t (0 : Fin 4) * 1 + 1 * 0 = win1_4.index t (0 : Fin 4); omega
      | ⟨1, _⟩ => show win1_1.index t (1 : Fin 4) * 2048 + 1 * p.val = p.val; omega
      | ⟨2, _⟩ => show win1_1.index t (2 : Fin 4) * 16 + 1 * h.val = h.val; omega
      | ⟨3, _⟩ => show win1_1.index t (3 : Fin 4) * 64 + 1 * e.val = e.val; omega
    · intro p
      show V c main_v10 (((cfg1.win 2).blk t).view.emb (ix4 0 p h d)) = V c main_v10 _
      refine congrArg (V c main_v10) (funext fun a => Fin.ext ?_)
      match a with
      | ⟨0, _⟩ => show win1_2.index t (0 : Fin 4) * 1 + 1 * 0 = win1_4.index t (0 : Fin 4); omega
      | ⟨1, _⟩ => show win1_2.index t (1 : Fin 4) * 2048 + 1 * p.val = p.val; omega
      | ⟨2, _⟩ => show win1_2.index t (2 : Fin 4) * 16 + 1 * h.val = h.val; omega
      | ⟨3, _⟩ => show win1_2.index t (3 : Fin 4) * 64 + 1 * d.val = d.val; omega
    · intro p
      show V c main_v11 (((cfg1.win 3).blk t).view.emb (ix3 0 0 p)) = V c main_v11 _
      refine congrArg (V c main_v11) (funext fun a => Fin.ext ?_)
      match a with
      | ⟨0, _⟩ => show win1_3.index t (0 : Fin 3) * 1 + 1 * 0 = win1_4.index t (0 : Fin 4); omega
      | ⟨1, _⟩ => show win1_3.index t (1 : Fin 3) * 1 + 1 * 0 = 0; omega
      | ⟨2, _⟩ => show win1_3.index t (2 : Fin 3) * 2048 + 1 * p.val = p.val; omega
  exact funext key

end AtEntryContents

/-- An index of the array is in point t's block iff each coordinate is in the block's range on its axis. -/
theorem mem_blk (t : Fin cfg1.N) (i : S4x2048x16x64.Idx) :
    i ∈ ((cfg1.win 4).blk t).view.set ↔ ∀ a : Fin 4, win1_4.index t a * S1x512x16x64.size a ≤ (i a).val
      ∧ (i a).val < win1_4.index t a * S1x512x16x64.size a + S1x512x16x64.size a := by
  show i ∈ ((View.whole main_v12).slice (win1_4.rect t)).set ↔ _
  rw [View.set_slice_whole, Rect.mem_set_unit]
  exact Iff.rfl

/-- Every index of the array is in some point's block: (b, s, ·, ·) is in the block of the point (b, s / 512). -/
theorem covered (i : S4x2048x16x64.Idx) :
    ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 16 := (i 2).isLt
  have hi3 : (i 3).val < 64 := (i 3).isLt
  obtain ⟨t, e0, e1⟩ := point_of_block ⟨(i 0).val, hi0⟩ ⟨(i 1).val / 512, by omega⟩
  obtain ⟨q0, q1, q2, q3, k0, k1, k2, k3, v0, v1, v2, v3, m0, m1, m2, o2, o3, ob, oq⟩ := index_facts t
  have e0' : win1_4.index t (0 : Fin 4) = (i 0).val := e0
  have e1' : win1_4.index t (1 : Fin 4) = (i 1).val / 512 := e1
  refine ⟨t, flush1_4 t, ?_⟩
  rw [mem_blk]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 512 ≤ (i 1).val ∧ (i 1).val < win1_4.index t (1 : Fin 4) * 512 + 512; omega
  | ⟨2, _⟩ => show win1_4.index t (2 : Fin 4) * 16 ≤ (i 2).val ∧ (i 2).val < win1_4.index t (2 : Fin 4) * 16 + 16; omega
  | ⟨3, _⟩ => show win1_4.index t (3 : Fin 4) * 64 ≤ (i 3).val ∧ (i 3).val < win1_4.index t (3 : Fin 4) * 64 + 64; omega

/-- The attention call's output array after its 16 grid points, whatever the region finds in its four input arrays:
    entry (b, s, h, d) is the context entry of head h at lane d, from the query, key and value arrays read per
    (batch, position, head, lane) and the mask array read per (batch, key position). -/
theorem arr1_4 (V : (c : Dev nD) → (b : Ref sig .tc) → Buf (Elt Ideal) ((c : Thread nD τ).loc b)) (c : Dev nD) :
    (dat1 (F := Ideal) V c).arrAt 4 cfg1.N = fun j : S4x2048x16x64.Idx =>
      Cert.Spec.ctx (fun b s h d => V c main_v8 (ix4 b s h d)) (fun b s h d => V c main_v9 (ix4 b s h d))
        (fun b s h d => V c main_v10 (ix4 b s h d)) (fun b t => V c main_v11 (ix3 b 0 t)) (j 0) (j 2) (j 1) (j 3) :=
  (dat1 (F := Ideal) V c).arrAt_eq_of_cover 4 (attnOf (V c main_v8) (V c main_v9) (V c main_v10) (V c main_v11))
    (fun t _ => flushed_eq V c t) covered

end Cert.KernelIdeal.Hand

end
-- ==== Proof.Glue.lean ====
/-
  What the kernel program's result buffer holds, as the specified function of the launch memory's eight argument
  arrays. The program is: a stretch of host operations (flatten the hidden states, change the three weight matrices'
  format — the identity on the extended reals —, lay each bias out as a row), the projection call, a stretch of
  reshapes (split each projection's columns into heads; drop a unit axis of the mask), the attention call, and the
  reshape merging the heads back. Reading the final fold backwards: the result at (b, s, o) is the attention call's
  array at (b, s, o / 64, o % 64); that array is the context entry of its four input arrays; the query, key and
  value arrays at (b, s, h, d) are the projection call's three arrays at row 2048 b + s, column 64 h + d; and those
  are the rows of the flattened hidden states against the rows of the weights plus the bias — the projection of the
  specification.
-/
import proofs.«116430_j893353197834_2_alg».proof.Proof.Gen.KernelIdeal.Frame
import proofs.«116430_j893353197834_2_alg».proof.Proof.Spec
import proofs.«116430_j893353197834_2_alg».proof.Proof.Layout
import proofs.«116430_j893353197834_2_alg».proof.Proof.ProjRegion
import proofs.«116430_j893353197834_2_alg».proof.Proof.AttnRegion
import Idealize.ShloMosaic.Lib.ValueIdx
import Idealize.ShloMosaic.Lib.Pipeline.Value
import Idealize.ShloMosaic.Lib.StableHlo.Run

set_option maxRecDepth 16384

noncomputable section

namespace Cert.KernelIdeal.Hand

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg)

/-! ## The host operations before the projection call -/

theorem flat_stage (c : Dev nD) : (V1 (F := Ideal) m ρ c main_v0 : S8192x1024.Idx → EReal)
    = shapeCast S8192x1024 (m ((c : Thread nD τ).loc main_arg0)) shapeCasts_S4x2048x1024_S8192x1024 := by
  dsimp only [V1, W1, W0, hostOps0]; after_results; rfl

theorem wq_stage (c : Dev nD) : (V1 (F := Ideal) m ρ c main_v1 : S1024x1024.Idx → EReal) = m ((c : Thread nD τ).loc main_arg2) := by
  dsimp only [V1, W1, W0, hostOps0]; after_results; rfl

theorem wk_stage (c : Dev nD) : (V1 (F := Ideal) m ρ c main_v2 : S1024x1024.Idx → EReal) = m ((c : Thread nD τ).loc main_arg4) := by
  dsimp only [V1, W1, W0, hostOps0]; after_results; rfl

theorem wv_stage (c : Dev nD) : (V1 (F := Ideal) m ρ c main_v3 : S1024x1024.Idx → EReal) = m ((c : Thread nD τ).loc main_arg6) := by
  dsimp only [V1, W1, W0, hostOps0]; after_results; rfl

theorem bq_stage (c : Dev nD) : (V1 (F := Ideal) m ρ c main_v4 : S1x1024.Idx → EReal)
    = shapeCast S1x1024 (m ((c : Thread nD τ).loc main_arg3)) shapeCasts_S1024_S1x1024 := by
  dsimp only [V1, W1, W0, hostOps0]; after_results; rfl

theorem bk_stage (c : Dev nD) : (V1 (F := Ideal) m ρ c main_v5 : S1x1024.Idx → EReal)
    = shapeCast S1x1024 (m ((c : Thread nD τ).loc main_arg5)) shapeCasts_S1024_S1x1024 := by
  dsimp only [V1, W1, W0, hostOps0]; after_results; rfl

theorem bv_stage (c : Dev nD) : (V1 (F := Ideal) m ρ c main_v6 : S1x1024.Idx → EReal)
    = shapeCast S1x1024 (m ((c : Thread nD τ).loc main_arg7)) shapeCasts_S1024_S1x1024 := by
  dsimp only [V1, W1, W0, hostOps0]; after_results; rfl

/-- A projection call's entry, from the launch memory: the specification's projection at the flattened row and
    the column. -/
theorem rows_eq_proj (c : Dev nD) (a : S8192x1024.Idx → EReal) (w : S1024x1024.Idx → EReal) (bs : S1x1024.Idx → EReal)
    (x : Cert.Spec.Arr3) (W : Cert.Spec.Arr2) (bias : Cert.Spec.Arr1)
    (ha : a = shapeCast S8192x1024 x shapeCasts_S4x2048x1024_S8192x1024) (hw : w = W)
    (hb : bs = shapeCast S1x1024 bias shapeCasts_S1024_S1x1024) (b : Fin 4) (s : Fin 2048) (h : Fin 16) (d : Fin 64) :
    Cert.Spec.rows a w bs (⟨b.val * 2048 + s.val, by omega⟩ : Fin 8192) (⟨h.val * 64 + d.val, by omega⟩ : Fin 1024)
      = Cert.Spec.heads (Cert.Spec.proj x W bias) b s h d := by
  subst ha hw hb
  unfold Cert.Spec.rows Cert.Spec.heads Cert.Spec.proj Cert.Spec.col
  rw [Cert.Layout.row_apply]
  refine congrArg (· + _) (Finset.sum_congr rfl fun k _ => ?_)
  rw [Cert.Layout.flat_apply]

/-! ## The reshapes between the two calls -/

theorem q_stage (c : Dev nD) : (V3 (F := Ideal) m ρ c main_v8 : S4x2048x16x64.Idx → EReal)
    = shapeCast S4x2048x16x64 (W2 m ρ c (Proc.devRef .tc main_v7_0)) shapeCasts_S8192x1024_S4x2048x16x64 := by
  dsimp only [V3, W3, hostOps1]; after_results; rfl

theorem k_stage (c : Dev nD) : (V3 (F := Ideal) m ρ c main_v9 : S4x2048x16x64.Idx → EReal)
    = shapeCast S4x2048x16x64 (W2 m ρ c (Proc.devRef .tc main_v7_1)) shapeCasts_S8192x1024_S4x2048x16x64 := by
  dsimp only [V3, W3, hostOps1]; after_results; rfl

theorem v_stage (c : Dev nD) : (V3 (F := Ideal) m ρ c main_v10 : S4x2048x16x64.Idx → EReal)
    = shapeCast S4x2048x16x64 (W2 m ρ c (Proc.devRef .tc main_v7_2)) shapeCasts_S8192x1024_S4x2048x16x64 := by
  dsimp only [V3, W3, hostOps1]; after_results; rfl

theorem mask_stage (c : Dev nD) : (V3 (F := Ideal) m ρ c main_v11 : S4x1x2048.Idx → EReal)
    = shapeCast S4x1x2048 (W2 m ρ c (Proc.devRef .tc main_arg1)) shapeCasts_S4x1x1x2048_S4x1x2048 := by
  dsimp only [V3, W3, hostOps1]; after_results; rfl

/-- Neither the first stretch of host operations nor the projection call writes the mask argument. -/
theorem mask_kept (c : Dev nD) : W2 (F := Ideal) m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
        simp only [hostOps0, List.Forall, StableHlo.unary_writes, StableHlo.reshape_writes, Finset.mem_singleton]
        repeat' apply And.intro
        all_goals exact StableHlo.devRef_ne_of_ne (by decide)))
    _ = m ((c : Thread nD τ).loc main_arg1) := rfl

/-- The query, key and value arrays the attention call finds are the specification's projections split into heads. -/
theorem q_heads (c : Dev nD) : (fun b s h d => V3 (F := Ideal) m ρ c main_v8 (ix4 b s h d))
    = Cert.Spec.heads (Cert.Spec.proj (m ((c : Thread nD τ).loc main_arg0)) (m ((c : Thread nD τ).loc main_arg2)) (m ((c : Thread nD τ).loc main_arg3))) := by
  funext b s h d
  rw [q_stage, Cert.Layout.split_apply]
  refine (congrFun (show W2 m ρ c (Proc.devRef .tc main_v7_0) = _ from (W2_arr m ρ c 7).trans (arr0_7 (V1 m ρ) c)) _).trans ?_
  exact rows_eq_proj c _ _ _ _ _ _ (flat_stage m ρ c) (wq_stage m ρ c) (bq_stage m ρ c) b s h d

theorem k_heads (c : Dev nD) : (fun b s h d => V3 (F := Ideal) m ρ c main_v9 (ix4 b s h d))
    = Cert.Spec.heads (Cert.Spec.proj (m ((c : Thread nD τ).loc main_arg0)) (m ((c : Thread nD τ).loc main_arg4)) (m ((c : Thread nD τ).loc main_arg5))) := by
  funext b s h d
  rw [k_stage, Cert.Layout.split_apply]
  refine (congrFun (show W2 m ρ c (Proc.devRef .tc main_v7_1) = _ from (W2_arr m ρ c 8).trans (arr0_8 (V1 m ρ) c)) _).trans ?_
  exact rows_eq_proj c _ _ _ _ _ _ (flat_stage m ρ c) (wk_stage m ρ c) (bk_stage m ρ c) b s h d

theorem v_heads (c : Dev nD) : (fun b s h d => V3 (F := Ideal) m ρ c main_v10 (ix4 b s h d))
    = Cert.Spec.heads (Cert.Spec.proj (m ((c : Thread nD τ).loc main_arg0)) (m ((c : Thread nD τ).loc main_arg6)) (m ((c : Thread nD τ).loc main_arg7))) := by
  funext b s h d
  rw [v_stage, Cert.Layout.split_apply]
  refine (congrFun (show W2 m ρ c (Proc.devRef .tc main_v7_2) = _ from (W2_arr m ρ c 9).trans (arr0_9 (V1 m ρ) c)) _).trans ?_
  exact rows_eq_proj c _ _ _ _ _ _ (flat_stage m ρ c) (wv_stage m ρ c) (bv_stage m ρ c) b s h d

/-- The mask the attention call finds is the mask argument at its key position. -/
theorem mask_rows (c : Dev nD) : (fun (b : Fin 4) (t : Fin 2048) => V3 (F := Ideal) m ρ c main_v11 (ix3 b 0 t))
    = fun b t => m ((c : Thread nD τ).loc main_arg1) (ix4 b 0 0 t) := by
  funext b t
  rw [mask_stage, Cert.Layout.mask_apply, mask_kept]

/-! ## The reshape after the attention call, and the result -/

theorem out_stage (c : Dev nD) : (W5 (F := Ideal) m ρ c (Proc.devRef .tc main_v13) : S4x2048x1024.Idx → EReal)
    = shapeCast S4x2048x1024 (W4 m ρ c (Proc.devRef .tc main_v12)) shapeCasts_S4x2048x16x64_S4x2048x1024 := by
  dsimp only [W5, hostOps2]; after_results; rfl

/-- THE KERNEL PROGRAM'S RESULT is the specified function of the eight argument arrays as launched. -/
theorem result_eq (c : Dev nD) : (W5 (F := Ideal) m ρ c (Proc.devRef .tc main_v13) : S4x2048x1024.Idx → EReal)
    = Cert.Spec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  funext i
  obtain ⟨b, s, o, rfl⟩ : ∃ (b : Fin 4) (s : Fin 2048) (o : Fin 1024), i = ix3 b s o := ⟨i 0, i 1, i 2, eq_ix3 i⟩
  rw [out_stage, Cert.Layout.merge_apply]
  refine (congrFun (show W4 m ρ c (Proc.devRef .tc main_v12) = _ from (W4_arr m ρ c 4).trans (arr1_4 (V3 m ρ) c)) _).trans ?_
  show Cert.Spec.ctx _ _ _ _ b (⟨o.val / 64, _⟩ : Fin 16) s (⟨o.val % 64, _⟩ : Fin 64) = _
  rw [q_heads, k_heads, v_heads, mask_rows]
  rfl

end Cert.KernelIdeal.Hand

end
-- ==== Proof.RefIsSpec.lean ====
/-
  The reference side: its result, read one operation at a time, is the specified function.

  Each of the three projections is a row of the hidden states against a row of the weights plus the bias, and its
  reshape and transpose only rename column 64 h + d as lane d of head h. The score chain divides the lane product
  by eight, adds the mask, divides by thirty, takes the hyperbolic tangent, multiplies by thirty and rectifies; a
  division by a nonzero real is the product with its reciprocal on every extended real, so no finiteness is
  needed. The row sum starts from the zero word, the small word is carried unevaluated, and the last transpose and
  reshape rename lane o % 64 of head o / 64 back to column o.
-/
import proofs.«116430_j893353197834_2_alg».proof.Proof.Gen.ReferenceIdeal.Read
import proofs.«116430_j893353197834_2_alg».proof.Proof.Spec
import proofs.«116430_j893353197834_2_alg».proof.Proof.Consts

noncomputable section

namespace Cert.ReferenceIdeal.Hand

open Idealize.ShloMosaic Idealize.ShloMosaic.ValueIdx Idealize.ShloMosaic.TcCoe Idealize.SL.Sem Cert.ReferenceIdeal Cert.ReferenceIdeal.Gen Cert.ReferenceIdeal.Read

/-! ## The three projections, seen per batch, head, position and lane -/

/-- Reading the head-major view back through the transpose lands on the position-major index. -/
theorem idx5 (b : Fin 4) (h : Fin 16) (s : Fin 2048) (d : Fin 64) :
    idx_main_v5 (ix4 b h s d) = ix4 b s h d :=
  funext fun a => Fin.ext (by match a with | ⟨0, _⟩ => rfl | ⟨1, _⟩ => rfl | ⟨2, _⟩ => rfl | ⟨3, _⟩ => rfl)

/-- Reading the four-axis view back through the reshape lands on column 64 h + d: the flat position of
    (b, s, h, d) among 4 × 2048 × 16 × 64 entries is the flat position of (b, s, 64 h + d) among 4 × 2048 × 1024. -/
theorem idx4 (b : Fin 4) (s : Fin 2048) (h : Fin 16) (d : Fin 64) :
    idx_main_v4 (ix4 b s h d) = ix3 b s (Cert.Spec.col h d) :=
  funext fun a => Fin.ext (by
    have hb := b.isLt; have hs := s.isLt; have hh := h.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = h.val * 64 + d.val; omega)

/-- The matrix product reads the hidden states along the position's row … -/
theorem lidx0 (b : Fin 4) (s : Fin 2048) (o k : Fin 1024) :
    lidx_main_v0 (ix3 b s o) k = ix3 b s k :=
  funext fun a => Fin.ext (by match a with | ⟨0, _⟩ => rfl | ⟨1, _⟩ => rfl | ⟨2, _⟩ => rfl)

/-- … and the weights along row o. -/
theorem ridx0 (b : Fin 4) (s : Fin 2048) (o k : Fin 1024) :
    ridx_main_v0 (ix3 b s o) k = ix2 o k :=
  funext fun a => Fin.ext (by match a with | ⟨0, _⟩ => rfl | ⟨1, _⟩ => rfl)

/-- The two broadcasts of the bias read it at the column. -/
theorem idx12 (b : Fin 4) (s : Fin 2048) (o : Fin 1024) :
    idx_main_v1 (idx_main_v2 (ix3 b s o)) = ix1 o :=
  funext fun a => Fin.ext (by match a with | ⟨0, _⟩ => rfl)

/-- The query projection before it is split into heads. -/
theorem v3_eq (x0 : Cert.Spec.Arr3) (x2 : Cert.Spec.Arr2) (x3 : Cert.Spec.Arr1) (b : Fin 4) (s : Fin 2048) (o : Fin 1024) :
    val_main_v3 (F := Ideal) x0 x2 x3 (ix3 b s o) = Cert.Spec.proj x0 x2 x3 b s o := by
  rw [val_main_v3_apply, val_main_v0_apply, val_main_v2_apply, val_main_v1_apply, idx12]
  simp only [lidx0, ridx0, Ideal.addf_def]
  rfl

/-- The query projection per head. -/
theorem v5_eq (x0 : Cert.Spec.Arr3) (x2 : Cert.Spec.Arr2) (x3 : Cert.Spec.Arr1) (b : Fin 4) (h : Fin 16) (s : Fin 2048) (d : Fin 64) :
    val_main_v5 (F := Ideal) x0 x2 x3 (ix4 b h s d) = Cert.Spec.heads (Cert.Spec.proj x0 x2 x3) b s h d := by
  rw [val_main_v5_apply, idx5, val_main_v4_apply, idx4, v3_eq]
  rfl

/-- The key projection before it is split into heads: the same three operations on the key weights and bias. -/
theorem v9_eq (x0 : Cert.Spec.Arr3) (x4 : Cert.Spec.Arr2) (x5 : Cert.Spec.Arr1) (b : Fin 4) (s : Fin 2048) (o : Fin 1024) :
    val_main_v9 (F := Ideal) x0 x4 x5 (ix3 b s o) = Cert.Spec.proj x0 x4 x5 b s o := by
  rw [val_main_v9_apply, val_main_v6_apply, val_main_v8_apply, val_main_v7_apply]
  rw [show idx_main_v7 (idx_main_v8 (ix3 b s o)) = ix1 o from idx12 b s o]
  simp only [show ∀ k, lidx_main_v6 (ix3 b s o) k = ix3 b s k from lidx0 b s o,
    show ∀ k, ridx_main_v6 (ix3 b s o) k = ix2 o k from ridx0 b s o, Ideal.addf_def]
  rfl

/-- The key projection per head. -/
theorem v11_eq (x0 : Cert.Spec.Arr3) (x4 : Cert.Spec.Arr2) (x5 : Cert.Spec.Arr1) (b : Fin 4) (h : Fin 16) (s : Fin 2048) (d : Fin 64) :
    val_main_v11 (F := Ideal) x0 x4 x5 (ix4 b h s d) = Cert.Spec.heads (Cert.Spec.proj x0 x4 x5) b s h d := by
  rw [val_main_v11_apply, show idx_main_v11 (ix4 b h s d) = ix4 b s h d from idx5 b h s d, val_main_v10_apply,
    show idx_main_v10 (ix4 b s h d) = ix3 b s (Cert.Spec.col h d) from idx4 b s h d, v9_eq]
  rfl

/-- The value projection before it is split into heads. -/
theorem v15_eq (x0 : Cert.Spec.Arr3) (x6 : Cert.Spec.Arr2) (x7 : Cert.Spec.Arr1) (b : Fin 4) (s : Fin 2048) (o : Fin 1024) :
    val_main_v15 (F := Ideal) x0 x6 x7 (ix3 b s o) = Cert.Spec.proj x0 x6 x7 b s o := by
  rw [val_main_v15_apply, val_main_v12_apply, val_main_v14_apply, val_main_v13_apply]
  rw [show idx_main_v13 (idx_main_v14 (ix3 b s o)) = ix1 o from idx12 b s o]
  simp only [show ∀ k, lidx_main_v12 (ix3 b s o) k = ix3 b s k from lidx0 b s o,
    show ∀ k, ridx_main_v12 (ix3 b s o) k = ix2 o k from ridx0 b s o, Ideal.addf_def]
  rfl

/-- The value projection per head. -/
theorem v17_eq (x0 : Cert.Spec.Arr3) (x6 : Cert.Spec.Arr2) (x7 : Cert.Spec.Arr1) (b : Fin 4) (h : Fin 16) (s : Fin 2048) (d : Fin 64) :
    val_main_v17 (F := Ideal) x0 x6 x7 (ix4 b h s d) = Cert.Spec.heads (Cert.Spec.proj x0 x6 x7) b s h d := by
  rw [val_main_v17_apply, show idx_main_v17 (ix4 b h s d) = ix4 b s h d from idx5 b h s d, val_main_v16_apply,
    show idx_main_v16 (ix4 b s h d) = ix3 b s (Cert.Spec.col h d) from idx4 b s h d, v15_eq]
  rfl

/-! ## The rectified capped scores -/

/-- The score product reads the query head along position s … -/
theorem lidx18 (b : Fin 4) (h : Fin 16) (s t : Fin 2048) (k : Fin 64) :
    lidx_main_v18 (ix4 b h s t) k = ix4 b h s k :=
  funext fun a => Fin.ext (by match a with | ⟨0, _⟩ => rfl | ⟨1, _⟩ => rfl | ⟨2, _⟩ => rfl | ⟨3, _⟩ => rfl)

/-- … and the key head along position t. -/
theorem ridx18 (b : Fin 4) (h : Fin 16) (s t : Fin 2048) (k : Fin 64) :
    ridx_main_v18 (ix4 b h s t) k = ix4 b h t k :=
  funext fun a => Fin.ext (by match a with | ⟨0, _⟩ => rfl | ⟨1, _⟩ => rfl | ⟨2, _⟩ => rfl | ⟨3, _⟩ => rfl)

/-- The broadcast mask is read at the batch and the key position. -/
theorem idx21 (b : Fin 4) (h : Fin 16) (s t : Fin 2048) :
    idx_main_v21 (ix4 b h s t) = ix4 b 0 0 t :=
  funext fun a => Fin.ext (by match a with | ⟨0, _⟩ => rfl | ⟨1, _⟩ => rfl | ⟨2, _⟩ => rfl | ⟨3, _⟩ => rfl)

/-- The raw score: the query row against the key row over the 64 lanes. -/
theorem v18_eq (x0 : Cert.Spec.Arr3) (x2 : Cert.Spec.Arr2) (x3 : Cert.Spec.Arr1) (x4 : Cert.Spec.Arr2) (x5 : Cert.Spec.Arr1)
    (b : Fin 4) (h : Fin 16) (s t : Fin 2048) :
    val_main_v18 (F := Ideal) x0 x2 x3 x4 x5 (ix4 b h s t)
      = ∑ e : Fin 64, Cert.Spec.heads (Cert.Spec.proj x0 x2 x3) b s h e * Cert.Spec.heads (Cert.Spec.proj x0 x4 x5) b t h e := by
  rw [val_main_v18_apply]
  simp only [lidx18, ridx18, v5_eq, v11_eq]

/-- The rectified capped score. -/
theorem v28_eq (x0 : Cert.Spec.Arr3) (x1 : Cert.Spec.ArrM) (x2 : Cert.Spec.Arr2) (x3 : Cert.Spec.Arr1) (x4 : Cert.Spec.Arr2)
    (x5 : Cert.Spec.Arr1) (b : Fin 4) (h : Fin 16) (s t : Fin 2048) :
    val_main_v28 (F := Ideal) x0 x1 x2 x3 x4 x5 (ix4 b h s t)
      = Cert.Spec.score (Cert.Spec.heads (Cert.Spec.proj x0 x2 x3)) (Cert.Spec.heads (Cert.Spec.proj x0 x4 x5))
          (fun b t => x1 (ix4 b 0 0 t)) b h s t := by
  rw [val_main_v28_apply, val_main_v27_apply, val_main_v25_apply, val_main_v24_apply, val_main_v22_apply,
    val_main_v20_apply, v18_eq, val_main_v19_apply, val_main_cst_apply, val_main_v21_apply, idx21,
    val_main_v23_apply, val_main_cst_0_apply, val_main_v26_apply, val_main_cst_1_apply,
    val_main_call0_v0_apply, val_main_call0_cst_apply]
  simp only [Ideal.maximumf_def, Ideal.mulf_def, Ideal.hostUnary_tanh_def, Ideal.hostDivf_def, Ideal.addf_def,
    Ideal.ofBits_def, Cert.Consts.ofBits_eight, Cert.Consts.ofBits_thirty, Ideal.ofBits_zero_f32,
    Cert.Spec.div_eight, Cert.Spec.div_thirty]
  rfl

/-! ## The row sums, the normalised rows and the context -/

/-- The row sum reads the scores along the key positions. -/
theorem idx29 (b : Fin 4) (h : Fin 16) (s : Fin 2048) (k : Fin 2048) :
    idx_main_v29 (ix3 b h s) k = ix4 b h s k :=
  funext fun a => Fin.ext (by match a with | ⟨0, _⟩ => rfl | ⟨1, _⟩ => rfl | ⟨2, _⟩ => rfl | ⟨3, _⟩ => rfl)

/-- The divisor's two broadcasts read the row sum of the score's own row. -/
theorem idx3033 (b : Fin 4) (h : Fin 16) (s t : Fin 2048) :
    idx_main_v30 (idx_main_v33 (ix4 b h s t)) = ix3 b h s :=
  funext fun a => Fin.ext (by match a with | ⟨0, _⟩ => rfl | ⟨1, _⟩ => rfl | ⟨2, _⟩ => rfl)

/-- The context product reads the normalised row along the key positions … -/
theorem lidx35 (b : Fin 4) (h : Fin 16) (s : Fin 2048) (d : Fin 64) (k : Fin 2048) :
    lidx_main_v35 (ix4 b h s d) k = ix4 b h s k :=
  funext fun a => Fin.ext (by match a with | ⟨0, _⟩ => rfl | ⟨1, _⟩ => rfl | ⟨2, _⟩ => rfl | ⟨3, _⟩ => rfl)

/-- … and the value head along the key positions at lane d. -/
theorem ridx35 (b : Fin 4) (h : Fin 16) (s : Fin 2048) (d : Fin 64) (k : Fin 2048) :
    ridx_main_v35 (ix4 b h s d) k = ix4 b h k d :=
  funext fun a => Fin.ext (by match a with | ⟨0, _⟩ => rfl | ⟨1, _⟩ => rfl | ⟨2, _⟩ => rfl | ⟨3, _⟩ => rfl)

/-- The divisor of a row: the sum of its scores plus the small word. -/
theorem v33_eq (x0 : Cert.Spec.Arr3) (x1 : Cert.Spec.ArrM) (x2 : Cert.Spec.Arr2) (x3 : Cert.Spec.Arr1) (x4 : Cert.Spec.Arr2)
    (x5 : Cert.Spec.Arr1) (b : Fin 4) (h : Fin 16) (s t : Fin 2048) :
    val_main_v33 (F := Ideal) x0 x1 x2 x3 x4 x5 (ix4 b h s t)
      = (∑ u : Fin 2048, Cert.Spec.score (Cert.Spec.heads (Cert.Spec.proj x0 x2 x3)) (Cert.Spec.heads (Cert.Spec.proj x0 x4 x5))
          (fun b t => x1 (ix4 b 0 0 t)) b h s u) + Cert.Spec.tiny := by
  rw [val_main_v33_apply, val_main_v32_apply, val_main_v30_apply, idx3033, val_main_v29_apply, val_main_cst_2_apply,
    val_main_v31_apply, val_main_cst_3_apply]
  simp only [idx29, v28_eq, Ideal.addf_def, Ideal.ofBits_def, Ideal.ofBits_zero_f32, zero_add]
  rfl

/-- A normalised score: the score over its row's divisor. -/
theorem v34_eq (x0 : Cert.Spec.Arr3) (x1 : Cert.Spec.ArrM) (x2 : Cert.Spec.Arr2) (x3 : Cert.Spec.Arr1) (x4 : Cert.Spec.Arr2)
    (x5 : Cert.Spec.Arr1) (b : Fin 4) (h : Fin 16) (s t : Fin 2048) :
    val_main_v34 (F := Ideal) x0 x1 x2 x3 x4 x5 (ix4 b h s t)
      = Ideal.div
          (Cert.Spec.score (Cert.Spec.heads (Cert.Spec.proj x0 x2 x3)) (Cert.Spec.heads (Cert.Spec.proj x0 x4 x5))
            (fun b t => x1 (ix4 b 0 0 t)) b h s t)
          ((∑ u : Fin 2048, Cert.Spec.score (Cert.Spec.heads (Cert.Spec.proj x0 x2 x3)) (Cert.Spec.heads (Cert.Spec.proj x0 x4 x5))
            (fun b t => x1 (ix4 b 0 0 t)) b h s u) + Cert.Spec.tiny) := by
  rw [val_main_v34_apply, v28_eq, v33_eq, Ideal.hostDivf_def]

/-- The context entry per head. -/
theorem v35_eq (x0 : Cert.Spec.Arr3) (x1 : Cert.Spec.ArrM) (x2 : Cert.Spec.Arr2) (x3 : Cert.Spec.Arr1) (x4 : Cert.Spec.Arr2)
    (x5 : Cert.Spec.Arr1) (x6 : Cert.Spec.Arr2) (x7 : Cert.Spec.Arr1) (b : Fin 4) (h : Fin 16) (s : Fin 2048) (d : Fin 64) :
    val_main_v35 (F := Ideal) x0 x1 x2 x3 x4 x5 x6 x7 (ix4 b h s d)
      = Cert.Spec.ctx (Cert.Spec.heads (Cert.Spec.proj x0 x2 x3)) (Cert.Spec.heads (Cert.Spec.proj x0 x4 x5))
          (Cert.Spec.heads (Cert.Spec.proj x0 x6 x7)) (fun b t => x1 (ix4 b 0 0 t)) b h s d := by
  rw [val_main_v35_apply]
  simp only [lidx35, ridx35, v34_eq, v17_eq]
  rfl

/-! ## Back to batch, position, column -/

/-- Reading the position-major view back through the last transpose lands on the head-major index. -/
theorem idx36 (b : Fin 4) (s : Fin 2048) (h : Fin 16) (d : Fin 64) :
    idx_main_v36 (ix4 b s h d) = ix4 b h s d :=
  funext fun a => Fin.ext (by match a with | ⟨0, _⟩ => rfl | ⟨1, _⟩ => rfl | ⟨2, _⟩ => rfl | ⟨3, _⟩ => rfl)

/-- Reading column o back through the last reshape lands on head o / 64, lane o % 64: the flat position of
    (b, s, o) among 4 × 2048 × 1024 entries is that of (b, s, o / 64, o % 64) among 4 × 2048 × 16 × 64. -/
theorem idx37 (b : Fin 4) (s : Fin 2048) (o : Fin 1024) :
    idx_main_v37 (ix3 b s o)
      = ix4 b s (⟨o.val / 64, Nat.div_lt_of_lt_mul o.isLt⟩ : Fin 16) (⟨o.val % 64, Nat.mod_lt _ (by norm_num)⟩ : Fin 64) :=
  funext fun a => Fin.ext (by
    have hb := b.isLt; have hs := s.isLt; have ho := o.isLt
    match a with
    | ⟨0, _⟩ => show ((b.val * 2048 + s.val) * 1024 + o.val) / 2097152 = b.val; omega
    | ⟨1, _⟩ => show ((b.val * 2048 + s.val) * 1024 + o.val) / 1024 % 2048 = s.val; omega
    | ⟨2, _⟩ => show ((b.val * 2048 + s.val) * 1024 + o.val) / 64 % 16 = o.val / 64; omega
    | ⟨3, _⟩ => show ((b.val * 2048 + s.val) * 1024 + o.val) % 64 = o.val % 64; omega)

/-- The reference's result, as the composition of its 45 host operations, is the specified function of the eight
    argument arrays. -/
theorem ref_eq (x0 : Cert.Spec.Arr3) (x1 : Cert.Spec.ArrM) (x2 : Cert.Spec.Arr2) (x3 : Cert.Spec.Arr1) (x4 : Cert.Spec.Arr2)
    (x5 : Cert.Spec.Arr1) (x6 : Cert.Spec.Arr2) (x7 : Cert.Spec.Arr1) :
    val_main_v37 (F := Ideal) x0 x1 x2 x3 x4 x5 x6 x7 = Cert.Spec.G x0 x1 x2 x3 x4 x5 x6 x7 := by
  funext i
  obtain ⟨b, s, o, rfl⟩ : ∃ (b : Fin 4) (s : Fin 2048) (o : Fin 1024), i = ix3 b s o := ⟨i 0, i 1, i 2, eq_ix3 i⟩
  rw [val_main_v37_apply, idx37, val_main_v36_apply, idx36, v35_eq]
  rfl

end Cert.ReferenceIdeal.Hand

end
-- ==== Proof.lean ====
/-
  Soft-capped rectified attention as two pipelined calls (the three projections; then, per batch and block of 512
  query positions, sixteen heads one after the other) against its plain reference, on the extended reals.

  Both programs compute ONE function of the eight argument arrays (Proof/Spec.lean): entry (b, s, o) is, for head
  o / 64 and lane o % 64, the row of rectified capped scores of position s divided by its sum plus a small word,
  against that lane of the values. The two programs differ only in how they spell two scalings — the kernel
  multiplies a score by one eighth and by one thirtieth where the reference divides by eight and by thirty — and
  multiplying by the reciprocal of a nonzero real IS dividing by it on every extended real, the infinities
  included; nothing is distributed or cancelled, so the inputs' finiteness is never used. Everything else is
  layout: the kernel flattens (batch, position) into rows, tiles rows into blocks of 512, and visits heads through
  slices of a block, where the reference transposes heads to the front.

  The kernel's side: the run with its final memory named (Proof/RunAll.lean), each call's output array as one
  function of the arrays it finds (Proof/ProjRegion.lean, Proof/AttnRegion.lean over the one head term of
  Proof/Head.lean, read at an entry in Proof/HeadValue.lean), and the reshapes between them (Proof/Layout.lean,
  Proof/Glue.lean). The reference's side: its operations composed (Proof/RefIsSpec.lean). The one constant the
  idealized kernel names, one thirtieth, is what its table gives it.
-/
import proofs.«116430_j893353197834_2_alg».proof.Defs
import proofs.«116430_j893353197834_2_alg».proof.Proof.Gen.Kernel
import proofs.«116430_j893353197834_2_alg».proof.Proof.Gen.Kernel.Frame
import proofs.«116430_j893353197834_2_alg».proof.Proof.Gen.KernelIdeal
import proofs.«116430_j893353197834_2_alg».proof.Proof.Gen.KernelIdeal.Frame
import proofs.«116430_j893353197834_2_alg».proof.Proof.Gen.ReferenceIdeal
import proofs.«116430_j893353197834_2_alg».proof.Proof.Gen.ReferenceIdeal.Run
import proofs.«116430_j893353197834_2_alg».proof.Proof.Gen.ReferenceIdeal.Read
import proofs.«116430_j893353197834_2_alg».proof.Proof.Gen.Pre_finite_inputs
import proofs.«116430_j893353197834_2_alg».proof.Proof.RunAll
import proofs.«116430_j893353197834_2_alg».proof.Proof.Glue
import proofs.«116430_j893353197834_2_alg».proof.Proof.RefIsSpec
import Idealize.ShloMosaic.Adequacy
import Idealize.ShloMosaic.Init

noncomputable section

namespace Cert.Proof

open Idealize.ShloMosaic Idealize.SL.Sem

/-- Each program runs to the end without a fault and leaves its arguments as launched. -/
theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The named constant: the table gives "inv_30" the value one thirtieth, which the printed constant then is. -/
theorem thirtieth : IdealRules.named_const.Statement Cert.KernelIdeal.κ "inv_30" .f32 0x3D088889#32 ((1 / 30 : ℝ) : EReal) :=
  IdealRules.named_const.statement Cert.KernelIdeal.κ "inv_30" .f32 0x3D088889#32 ((1 / 30 : ℝ) : EReal) rfl

/-- The idealization named that one constant sixteen times, once per head. -/
theorem preserves : Cert.preserves_Kernel_KernelIdeal :=
  ⟨thirtieth, thirtieth, thirtieth, thirtieth, thirtieth, thirtieth, thirtieth, thirtieth,
   thirtieth, thirtieth, thirtieth, thirtieth, thirtieth, thirtieth, thirtieth, thirtieth⟩

/-- Both idealized programs, from memories agreeing on the arguments, end with the specified function of those
    arguments in their result buffers. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v37_eq, Cert.ReferenceIdeal.Hand.ref_eq,
      (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
